-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x256x56x56 : Shape := ⟨4, ![32, 256, 56, 56]⟩
abbrev S256x13 : Shape := ⟨2, ![256, 13]⟩
abbrev S256x2 : Shape := ⟨2, ![256, 2]⟩
abbrev S_ : Shape := ⟨0, ![]⟩
abbrev S256x1 : Shape := ⟨2, ![256, 1]⟩
abbrev S256 : Shape := ⟨1, ![256]⟩

class Facts : Prop where
  bcast_S_S32x256x56x56 : S_.BroadcastsInDim S32x256x56x56 (![] : Fin 0 → Fin S32x256x56x56.rank)
  reducesTo_S32x256x56x56_S_d0_1_2_3 : S32x256x56x56.ReducesTo [0, 1, 2, 3] S_
  h_S_ : 0 < S_.numel
  bcast_S_S256x13 : S_.BroadcastsInDim S256x13 (![] : Fin 0 → Fin S256x13.rank)
  reducesTo_S256x13_S_d0_1 : S256x13.ReducesTo [0, 1] S_
  bcast_S_S256x2 : S_.BroadcastsInDim S256x2 (![] : Fin 0 → Fin S256x2.rank)
  reducesTo_S256x2_S_d0_1 : S256x2.ReducesTo [0, 1] S_
  slices_S256x2_S256x1_0_1 : S256x2.Slices ![0, 1] S256x1
  shapeCasts_S256x1_S256 : S256x1.ShapeCasts S256
  slices_S256x2_S256x1_0_0 : S256x2.Slices ![0, 0] S256x1
  reducesTo_S256_S_d0 : S256.ReducesTo [0] S_

variable [Facts]

def fn_part1 {F : FTy → Type} [FloatOps F] (main_v13 : IVec S_ 1) (main_v15 : FVec F S256 .f32) (main_v17 : FVec F S256 .f32) : IVec S_ 1 :=
  let main_v18 : IVec S256 1 := cmpf .une main_v15 main_v17
  let main_c_4 : IVec S_ 1 := constantI S_ 1 1#1
  let main_v19 : IVec S_ 1 := (fun x v => Host.reduce IntOp.andi x v reducesTo_S256_S_d0 h_S_) main_v18 main_c_4
  let main_v20 : IVec S_ 1 := andi main_v13 main_v19
  main_v20

def fn {F : FTy → Type} [FloatOps F] (main_arg0 : FVec F S32x256x56x56 .f32) (main_arg1 : FVec F S256x13 .f32) (main_arg2 : FVec F S256x2 .f32) : IVec S_ 1 :=
  let main_v0 : FVec F S32x256x56x56 .f32 := Host.absf main_arg0
  let main_cst : FVec F S_ .f32 := constant S_ .f32 0x7F800000#32
  let main_v1 : FVec F S32x256x56x56 .f32 := broadcastInDim S32x256x56x56 ![] bcast_S_S32x256x56x56 main_cst
  let main_v2 : IVec S32x256x56x56 1 := cmpf .olt main_v0 main_v1
  let main_c : IVec S_ 1 := constantI S_ 1 1#1
  let main_v3 : IVec S_ 1 := (fun x v => Host.reduce IntOp.andi x v reducesTo_S32x256x56x56_S_d0_1_2_3 h_S_) main_v2 main_c
  let main_v4 : FVec F S256x13 .f32 := Host.absf main_arg1
  let main_cst_0 : FVec F S_ .f32 := constant S_ .f32 0x7F800000#32
  let main_v5 : FVec F S256x13 .f32 := broadcastInDim S256x13 ![] bcast_S_S256x13 main_cst_0
  let main_v6 : IVec S256x13 1 := cmpf .olt main_v4 main_v5
  let main_c_1 : IVec S_ 1 := constantI S_ 1 1#1
  let main_v7 : IVec S_ 1 := (fun x v => Host.reduce IntOp.andi x v reducesTo_S256x13_S_d0_1 h_S_) main_v6 main_c_1
  let main_v8 : IVec S_ 1 := andi main_v3 main_v7
  let main_v9 : FVec F S256x2 .f32 := Host.absf main_arg2
  let main_cst_2 : FVec F S_ .f32 := constant S_ .f32 0x7F800000#32
  let main_v10 : FVec F S256x2 .f32 := broadcastInDim S256x2 ![] bcast_S_S256x2 main_cst_2
  let main_v11 : IVec S256x2 1 := cmpf .olt main_v9 main_v10
  let main_c_3 : IVec S_ 1 := constantI S_ 1 1#1
  let main_v12 : IVec S_ 1 := (fun x v => Host.reduce IntOp.andi x v reducesTo_S256x2_S_d0_1 h_S_) main_v11 main_c_3
  let main_v13 : IVec S_ 1 := andi main_v8 main_v12
  let main_v14 : FVec F S256x1 .f32 := (extractStridedSlice S256x1 ![0, 1] · slices_S256x2_S256x1_0_1) main_arg2
  let main_v15 : FVec F S256 .f32 := shapeCast S256 main_v14 shapeCasts_S256x1_S256
  let main_v16 : FVec F S256x1 .f32 := (extractStridedSlice S256x1 ![0, 0] · slices_S256x2_S256x1_0_0) main_arg2
  let main_v17 : FVec F S256 .f32 := shapeCast S256 main_v16 shapeCasts_S256x1_S256
  fn_part1 (F := F) main_v13 main_v15 main_v17
-- ==== Kernel.lean ====
abbrev S32x256x56x56 : Shape := ⟨4, ![32, 256, 56, 56]⟩
abbrev S256x13 : Shape := ⟨2, ![256, 13]⟩
abbrev S256x2 : Shape := ⟨2, ![256, 2]⟩
abbrev S32x256x3136 : Shape := ⟨3, ![32, 256, 3136]⟩
abbrev S256x1 : Shape := ⟨2, ![256, 1]⟩
abbrev S256 : Shape := ⟨1, ![256]⟩
abbrev S_ : Shape := ⟨0, ![]⟩
abbrev S256x12 : Shape := ⟨2, ![256, 12]⟩
abbrev S8x32x3136 : Shape := ⟨3, ![8, 32, 3136]⟩
abbrev S32x12 : Shape := ⟨2, ![32, 12]⟩
abbrev S32x2 : Shape := ⟨2, ![32, 2]⟩
abbrev S32x1 : Shape := ⟨2, ![32, 1]⟩
abbrev S32 : Shape := ⟨1, ![32]⟩
abbrev S1x32x1 : Shape := ⟨3, ![1, 32, 1]⟩

abbrev nBuf : Space → Nat
  | .hbm => 23
  | .vmem => 10
  | .smem => 0
  | _ => 0

abbrev bufTy : (tb : Table) → Fin (tcTables nBuf tb) → BufTy
  | .hbm, ⟨0, _⟩ => ⟨S32x256x56x56, .f32⟩
  | .hbm, ⟨1, _⟩ => ⟨S256x13, .f32⟩
  | .hbm, ⟨2, _⟩ => ⟨S256x2, .f32⟩
  | .hbm, ⟨3, _⟩ => ⟨S32x256x3136, .f32⟩
  | .hbm, ⟨4, _⟩ => ⟨S256x1, .f32⟩
  | .hbm, ⟨5, _⟩ => ⟨S256, .f32⟩
  | .hbm, ⟨6, _⟩ => ⟨S256x1, .f32⟩
  | .hbm, ⟨7, _⟩ => ⟨S256, .f32⟩
  | .hbm, ⟨8, _⟩ => ⟨S256, .f32⟩
  | .hbm, ⟨9, _⟩ => ⟨S_, .f32⟩
  | .hbm, ⟨10, _⟩ => ⟨S256, .f32⟩
  | .hbm, ⟨11, _⟩ => ⟨S256, .f32⟩
  | .hbm, ⟨12, _⟩ => ⟨S256, .f32⟩
  | .hbm, ⟨13, _⟩ => ⟨S256, .f32⟩
  | .hbm, ⟨14, _⟩ => ⟨S256x1, .f32⟩
  | .hbm, ⟨15, _⟩ => ⟨S256x1, .f32⟩
  | .hbm, ⟨16, _⟩ => ⟨S256x2, .f32⟩
  | .hbm, ⟨17, _⟩ => ⟨S256x12, .f32⟩
  | .hbm, ⟨18, _⟩ => ⟨S256x12, .f32⟩
  | .hbm, ⟨19, _⟩ => ⟨S256x12, .f32⟩
  | .hbm, ⟨20, _⟩ => ⟨S256x12, .f32⟩
  | .hbm, ⟨21, _⟩ => ⟨S32x256x3136, .f32⟩
  | .hbm, ⟨22, _⟩ => ⟨S32x256x56x56, .f32⟩
  | .local _ .vmem, ⟨0, _⟩ => ⟨S8x32x3136, .f32⟩
  | .local _ .vmem, ⟨1, _⟩ => ⟨S8x32x3136, .f32⟩
  | .local _ .vmem, ⟨2, _⟩ => ⟨S32x12, .f32⟩
  | .local _ .vmem, ⟨3, _⟩ => ⟨S32x12, .f32⟩
  | .local _ .vmem, ⟨4, _⟩ => ⟨S32x12, .f32⟩
  | .local _ .vmem, ⟨5, _⟩ => ⟨S32x12, .f32⟩
  | .local _ .vmem, ⟨6, _⟩ => ⟨S32x2, .f32⟩
  | .local _ .vmem, ⟨7, _⟩ => ⟨S32x2, .f32⟩
  | .local _ .vmem, ⟨8, _⟩ => ⟨S8x32x3136, .f32⟩
  | .local _ .vmem, ⟨9, _⟩ => ⟨S8x32x3136, .f32⟩
  | _, _ => ⟨S32x256x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S8x32x3136 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S32x12 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S32x12 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S32x2 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S8x32x3136 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S32x256x56x56_S32x256x3136 : S32x256x56x56.ShapeCasts S32x256x3136
  slices_S256x2_S256x1_0_0 : S256x2.Slices ![0, 0] S256x1
  shapeCasts_S256x1_S256 : S256x1.ShapeCasts S256
  slices_S256x2_S256x1_0_1 : S256x2.Slices ![0, 1] S256x1
  bcast_S_S256 : S_.BroadcastsInDim S256 (![] : Fin 0 → Fin S256.rank)
  bcast_S256_S256x1_0 : S256.BroadcastsInDim S256x1 (![0] : Fin 1 → Fin S256x1.rank)
  concatenates_S256x1_S256x1_S256x2_d1 : Shape.Concatenates [S256x1, S256x1] S256x2 1
  slices_S256x13_S256x12_0_0 : S256x13.Slices ![0, 0] S256x12
  slices_S256x13_S256x12_0_1 : S256x13.Slices ![0, 1] S256x12
  inb_S8x32x3136_S8x32x3136_0_0_0 : ∀ a, (![0, 0, 0] : Fin 3 → Nat) a + S8x32x3136.size a ≤ S8x32x3136.size a
  h_S8x32x3136 : 0 < S8x32x3136.numel
  shapeCasts_S8x32x3136_S8x32x3136 : S8x32x3136.ShapeCasts S8x32x3136
  inb_S32x2_S32x2_0_0 : ∀ a, (![0, 0] : Fin 2 → Nat) a + S32x2.size a ≤ S32x2.size a
  h_S32x2 : 0 < S32x2.numel
  shapeCasts_S32x2_S32x2 : S32x2.ShapeCasts S32x2
  slices_S32x2_o0_0_S32x1 : S32x2.Slices ![0, 0] S32x1
  shapeCasts_S32x1_S32 : S32x1.ShapeCasts S32
  shapeCasts_S32_S1x32x1 : S32.ShapeCasts S1x32x1
  slices_S32x2_o0_1_S32x1 : S32x2.Slices ![0, 1] S32x1
  broadcasts_S1x32x1_S8x32x3136 : S1x32x1.Broadcasts S8x32x3136
  inb_S32x12_S32x1_0_0 : ∀ a, (![0, 0] : Fin 2 → Nat) a + S32x1.size a ≤ S32x12.size a
  h_S32x1 : 0 < S32x1.numel
  shapeCasts_S1x32x1_S1x32x1 : S1x32x1.ShapeCasts S1x32x1
  inb_S32x12_S32x1_0_1 : ∀ a, (![0, 1] : Fin 2 → Nat) a + S32x1.size a ≤ S32x12.size a
  inb_S32x12_S32x1_0_2 : ∀ a, (![0, 2] : Fin 2 → Nat) a + S32x1.size a ≤ S32x12.size a
  inb_S32x12_S32x1_0_3 : ∀ a, (![0, 3] : Fin 2 → Nat) a + S32x1.size a ≤ S32x12.size a
  inb_S32x12_S32x1_0_4 : ∀ a, (![0, 4] : Fin 2 → Nat) a + S32x1.size a ≤ S32x12.size a
  inb_S32x12_S32x1_0_5 : ∀ a, (![0, 5] : Fin 2 → Nat) a + S32x1.size a ≤ S32x12.size a
  inb_S32x12_S32x1_0_6 : ∀ a, (![0, 6] : Fin 2 → Nat) a + S32x1.size a ≤ S32x12.size a
  inb_S32x12_S32x1_0_7 : ∀ a, (![0, 7] : Fin 2 → Nat) a + S32x1.size a ≤ S32x12.size a
  inb_S32x12_S32x1_0_8 : ∀ a, (![0, 8] : Fin 2 → Nat) a + S32x1.size a ≤ S32x12.size a
  inb_S32x12_S32x1_0_9 : ∀ a, (![0, 9] : Fin 2 → Nat) a + S32x1.size a ≤ S32x12.size a
  inb_S32x12_S32x1_0_10 : ∀ a, (![0, 10] : Fin 2 → Nat) a + S32x1.size a ≤ S32x12.size a
  inb_S32x12_S32x1_0_11 : ∀ a, (![0, 11] : Fin 2 → Nat) a + S32x1.size a ≤ S32x12.size a
  shapeCasts_S32x256x3136_S32x256x56x56 : S32x256x3136.ShapeCasts S32x256x56x56
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x32x3136.size a ≤ S32x256x3136.size a
  hwx0_0 : ∀ i : grid0.Coords, EltTy.bits .f32 = 32 ∨ (Rect.block (s := S32x256x3136) S8x32x3136.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x12.size a ≤ S256x12.size a
  hwx0_1 : ∀ i : grid0.Coords, EltTy.bits .f32 = 32 ∨ (Rect.block (s := S256x12) S32x12.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x12.size a ≤ S256x12.size a
  hwx0_2 : ∀ i : grid0.Coords, EltTy.bits .f32 = 32 ∨ (Rect.block (s := S256x12) S32x12.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32x2.size a ≤ S256x2.size a
  hwx0_3 : ∀ i : grid0.Coords, EltTy.bits .f32 = 32 ∨ (Rect.block (s := S256x2) S32x2.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x32x3136.size a ≤ S32x256x3136.size a
  hwx0_4 : ∀ i : grid0.Coords, EltTy.bits .f32 = 32 ∨ (Rect.block (s := S32x256x3136) S8x32x3136.size (cc0_transform_4 i) (hinb0_4 i)).WholeWords (EltTy.packing .f32)

variable [Facts₀]

abbrev win0_0 : Pipeline.Window sig grid0 :=
  Pipeline.Window.ofSpec (Memref.whole main_v0) S8x32x3136.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S32x12.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16) S32x12.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v12) S32x2.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v17) S8x32x3136.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32x256x56x56 : Shape := ⟨4, ![32, 256, 56, 56]⟩
abbrev S256x13 : Shape := ⟨2, ![256, 13]⟩
abbrev S256x2 : Shape := ⟨2, ![256, 2]⟩
abbrev S256x1 : Shape := ⟨2, ![256, 1]⟩
abbrev S256 : Shape := ⟨1, ![256]⟩
abbrev S1x256x1x1 : Shape := ⟨4, ![1, 256, 1, 1]⟩
abbrev S_ : Shape := ⟨0, ![]⟩
abbrev S32x256x56x56x1 : Shape := ⟨5, ![32, 256, 56, 56, 1]⟩
abbrev S32x256x56x56x2 : Shape := ⟨5, ![32, 256, 56, 56, 2]⟩

abbrev nBuf : Space → Nat
  | .hbm => 80
  | .vmem => 0
  | .smem => 0
  | _ => 0

abbrev bufTy : (tb : Table) → Fin (tcTables nBuf tb) → BufTy
  | .hbm, ⟨0, _⟩ => ⟨S32x256x56x56, .f32⟩
  | .hbm, ⟨1, _⟩ => ⟨S256x13, .f32⟩
  | .hbm, ⟨2, _⟩ => ⟨S256x2, .f32⟩
  | .hbm, ⟨3, _⟩ => ⟨S256x1, .f32⟩
  | .hbm, ⟨4, _⟩ => ⟨S256, .f32⟩
  | .hbm, ⟨5, _⟩ => ⟨S1x256x1x1, .f32⟩
  | .hbm, ⟨6, _⟩ => ⟨S256x1, .f32⟩
  | .hbm, ⟨7, _⟩ => ⟨S256, .f32⟩
  | .hbm, ⟨8, _⟩ => ⟨S1x256x1x1, .f32⟩
  | .hbm, ⟨9, _⟩ => ⟨S32x256x56x56, .f32⟩
  | .hbm, ⟨10, _⟩ => ⟨S32x256x56x56, .f32⟩
  | .hbm, ⟨11, _⟩ => ⟨S1x256x1x1, .f32⟩
  | .hbm, ⟨12, _⟩ => ⟨S32x256x56x56, .f32⟩
  | .hbm, ⟨13, _⟩ => ⟨S32x256x56x56, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S32x256x56x56, .f32⟩
  | .hbm, ⟨18, _⟩ => ⟨S32x256x56x56, .f32⟩
  | .hbm, ⟨19, _⟩ => ⟨S_, .f32⟩
  | .hbm, ⟨20, _⟩ => ⟨S32x256x56x56, .f32⟩
  | .hbm, ⟨21, _⟩ => ⟨S32x256x56x56, .f32⟩
  | .hbm, ⟨22, _⟩ => ⟨S_, .f32⟩
  | .hbm, ⟨23, _⟩ => ⟨S32x256x56x56, .f32⟩
  | .hbm, ⟨24, _⟩ => ⟨S32x256x56x56, .f32⟩
  | .hbm, ⟨25, _⟩ => ⟨S32x256x56x56, .f32⟩
  | .hbm, ⟨26, _⟩ => ⟨S_, .f32⟩
  | .hbm, ⟨27, _⟩ => ⟨S32x256x56x56, .f32⟩
  | .hbm, ⟨28, _⟩ => ⟨S32x256x56x56, .f32⟩
  | .hbm, ⟨29, _⟩ => ⟨S32x256x56x56, .f32⟩
  | .hbm, ⟨30, _⟩ => ⟨S32x256x56x56, .i32⟩
  | .hbm, ⟨31, _⟩ => ⟨S256, .i32⟩
  | .hbm, ⟨32, _⟩ => ⟨S1x256x1x1, .i32⟩
  | .hbm, ⟨33, _⟩ => ⟨S_, .i32⟩
  | .hbm, ⟨34, _⟩ => ⟨S1x256x1x1, .i32⟩
  | .hbm, ⟨35, _⟩ => ⟨S1x256x1x1, .i1⟩
  | .hbm, ⟨36, _⟩ => ⟨S_, .i32⟩
  | .hbm, ⟨37, _⟩ => ⟨S1x256x1x1, .i32⟩
  | .hbm, ⟨38, _⟩ => ⟨S1x256x1x1, .i32⟩
  | .hbm, ⟨39, _⟩ => ⟨S1x256x1x1, .i32⟩
  | .hbm, ⟨40, _⟩ => ⟨S_, .i32⟩
  | .hbm, ⟨41, _⟩ => ⟨S32x256x56x56, .i32⟩
  | .hbm, ⟨42, _⟩ => ⟨S32x256x56x56, .i1⟩
  | .hbm, ⟨43, _⟩ => ⟨S_, .i32⟩
  | .hbm, ⟨44, _⟩ => ⟨S32x256x56x56, .i32⟩
  | .hbm, ⟨45, _⟩ => ⟨S32x256x56x56, .i32⟩
  | .hbm, ⟨46, _⟩ => ⟨S32x256x56x56, .i32⟩
  | .hbm, ⟨47, _⟩ => ⟨S32x256x56x56, .i32⟩
  | .hbm, ⟨48, _⟩ => ⟨S32x256x56x56x1, .i32⟩
  | .hbm, ⟨49, _⟩ => ⟨S32x256x56x56x1, .i32⟩
  | .hbm, ⟨50, _⟩ => ⟨S32x256x56x56x2, .i32⟩
  | .hbm, ⟨51, _⟩ => ⟨S32x256x56x56, .f32⟩
  | .hbm, ⟨52, _⟩ => ⟨S_, .i32⟩
  | .hbm, ⟨53, _⟩ => ⟨S32x256x56x56, .i32⟩
  | .hbm, ⟨54, _⟩ => ⟨S32x256x56x56, .i32⟩
  | .hbm, ⟨55, _⟩ => ⟨S_, .i32⟩
  | .hbm, ⟨56, _⟩ => ⟨S1x256x1x1, .i32⟩
  | .hbm, ⟨57, _⟩ => ⟨S1x256x1x1, .i1⟩
  | .hbm, ⟨58, _⟩ => ⟨S_, .i32⟩
  | .hbm, ⟨59, _⟩ => ⟨S1x256x1x1, .i32⟩
  | .hbm, ⟨60, _⟩ => ⟨S1x256x1x1, .i32⟩
  | .hbm, ⟨61, _⟩ => ⟨S1x256x1x1, .i32⟩
  | .hbm, ⟨62, _⟩ => ⟨S_, .i32⟩
  | .hbm, ⟨63, _⟩ => ⟨S32x256x56x56, .i32⟩
  | .hbm, ⟨64, _⟩ => ⟨S32x256x56x56, .i1⟩
  | .hbm, ⟨65, _⟩ => ⟨S_, .i32⟩
  | .hbm, ⟨66, _⟩ => ⟨S32x256x56x56, .i32⟩
  | .hbm, ⟨67, _⟩ => ⟨S32x256x56x56, .i32⟩
  | .hbm, ⟨68, _⟩ => ⟨S32x256x56x56, .i32⟩
  | .hbm, ⟨69, _⟩ => ⟨S32x256x56x56, .i32⟩
  | .hbm, ⟨70, _⟩ => ⟨S32x256x56x56x1, .i32⟩
  | .hbm, ⟨71, _⟩ => ⟨S32x256x56x56x1, .i32⟩
  | .hbm, ⟨72, _⟩ => ⟨S32x256x56x56x2, .i32⟩
  | .hbm, ⟨73, _⟩ => ⟨S32x256x56x56, .f32⟩
  | .hbm, ⟨74, _⟩ => ⟨S_, .f32⟩
  | .hbm, ⟨75, _⟩ => ⟨S32x256x56x56, .f32⟩
  | .hbm, ⟨76, _⟩ => ⟨S32x256x56x56, .f32⟩
  | .hbm, ⟨77, _⟩ => ⟨S32x256x56x56, .f32⟩
  | .hbm, ⟨78, _⟩ => ⟨S32x256x56x56, .f32⟩
  | .hbm, ⟨79, _⟩ => ⟨S32x256x56x56, .f32⟩
  | _, _ => ⟨S32x256x56x56, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_cst_0 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_c : Ref sig .tc := ⟨.hbm, 33, rfl⟩
abbrev main_v21 : Ref sig .tc := ⟨.hbm, 34, rfl⟩
abbrev main_v22 : Ref sig .tc := ⟨.hbm, 35, rfl⟩
abbrev main_c_3 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_c_4 : Ref sig .tc := ⟨.hbm, 40, rfl⟩
abbrev main_v26 : Ref sig .tc := ⟨.hbm, 41, rfl⟩
abbrev main_v27 : Ref sig .tc := ⟨.hbm, 42, rfl⟩
abbrev main_c_5 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_c_6 : Ref sig .tc := ⟨.hbm, 52, rfl⟩
abbrev main_v36 : Ref sig .tc := ⟨.hbm, 53, rfl⟩
abbrev main_v37 : Ref sig .tc := ⟨.hbm, 54, rfl⟩
abbrev main_c_7 : Ref sig .tc := ⟨.hbm, 55, rfl⟩
abbrev main_v38 : Ref sig .tc := ⟨.hbm, 56, rfl⟩
abbrev main_v39 : Ref sig .tc := ⟨.hbm, 57, rfl⟩
abbrev main_c_8 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_c_9 : Ref sig .tc := ⟨.hbm, 62, rfl⟩
abbrev main_v43 : Ref sig .tc := ⟨.hbm, 63, rfl⟩
abbrev main_v44 : Ref sig .tc := ⟨.hbm, 64, rfl⟩
abbrev main_c_10 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_11 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩

abbrev nD : Nat := 1
abbrev τ : Topo := Topo.v7x

variable {F : FTy → Type} [FloatOps F]

class Facts₀ : Prop where
  slices_S256x2_S256x1_0_0 : S256x2.Slices ![0, 0] S256x1
  shapeCasts_S256x1_S256 : S256x1.ShapeCasts S256
  bcast_S256_S1x256x1x1_1 : S256.BroadcastsInDim S1x256x1x1 (![1] : Fin 1 → Fin S1x256x1x1.rank)
  slices_S256x2_S256x1_0_1 : S256x2.Slices ![0, 1] S256x1
  bcast_S1x256x1x1_S32x256x56x56_0_1_2_3 : S1x256x1x1.BroadcastsInDim S32x256x56x56 (![0, 1, 2, 3] : Fin 4 → Fin S32x256x56x56.rank)
  bcast_S_S32x256x56x56 : S_.BroadcastsInDim S32x256x56x56 (![] : Fin 0 → Fin S32x256x56x56.rank)
  bcast_S_S1x256x1x1 : S_.BroadcastsInDim S1x256x1x1 (![] : Fin 0 → Fin S1x256x1x1.rank)
  bcast_S32x256x56x56_S32x256x56x56x1_0_1_2_3 : S32x256x56x56.BroadcastsInDim S32x256x56x56x1 (![0, 1, 2, 3] : Fin 4 → Fin S32x256x56x56x1.rank)
  concatenates_S32x256x56x56x1_S32x256x56x56x1_S32x256x56x56x2_d4 : Shape.Concatenates [S32x256x56x56x1, S32x256x56x56x1] S32x256x56x56x2 4
  gather_S256x13_S32x256x56x56x2_S32x256x56x56_n_01_n_n_01_4_11_wf : GatherDims.WF S256x13 S32x256x56x56x2 S32x256x56x56 [] [0, 1] [] [0, 1] [] 4 ![1, 1]

variable [Facts₀]

def gather_S256x13_S32x256x56x56x2_S32x256x56x56_n_01_n_n_01_4_11 : GatherDims S256x13 S32x256x56x56x2 S32x256x56x56 where
  offsetDims := []
  collapsedSliceDims := [0, 1]
  operandBatchingDims := []
  startIndicesBatchingDims := []
  startIndexMap := [0, 1]
  indexVectorDim := 4
  sliceSizes := ![1, 1]
  wf := gather_S256x13_S32x256x56x56x2_S32x256x56x56_n_01_n_n_01_4_11_wf

class Facts : Prop extends Facts₀ where

variable [Facts]
-- ==== Proof.Pwl.lean ====
/-
  A per-channel piecewise-linear lookup over the extended reals, as two formulas.

  For a channel with bounds `lo`, `hi` and a table `p` of 13 knot values, an input `x` is mapped to
  `12·(x − lo)/(hi − lo)`; the region `g` is the floor of that number clipped to a little under 12, the
  distance `d` is the unclipped number minus `g`, and the result interpolates between `p g` and `p (g+1)`.

  `kern` is the form that first folds the quotient into a scale `12/(hi − lo)` and an offset `−lo·scale`,
  clips in the scaled domain at the single-precision number nearest 11.988, picks the table entry by comparing `g`
  with each of 0, …, 11, and interpolates as `base + d·slope` with `slope r = p (r+1) − p r`.
  `ref` is the form that divides first, clips at the single-precision number nearest 0.999, multiplies by 12,
  turns `g` into a machine integer, reads the two table entries at that integer and the next one (an index read
  signed, a negative one wrapped by 13, then clamped into the table), and interpolates as `left·(1 − d) + right·d`.

  Nothing here says the two agree: they do when every input is a real number and `hi ≠ lo`.
-/
import Idealize.ShloMosaic.PureOps.Ideal
import Idealize.ShloMosaic.Lib.ValueIdx

noncomputable section

namespace Cert.Pwl

open Idealize.ShloMosaic Idealize.ShloMosaic.ValueIdx

/-- The shapes of the input, the knot table and the bounds. -/
abbrev SX : Shape := ⟨4, ![32, 256, 56, 56]⟩
abbrev SP : Shape := ⟨2, ![256, 13]⟩
abbrev SB : Shape := ⟨2, ![256, 2]⟩

/-- The single-precision words the two forms carry, read as extended reals. -/
def zero : EReal := Ideal.ofBits .f32 0x00000000#32
def one : EReal := Ideal.ofBits .f32 0x3F800000#32
def twelve : EReal := Ideal.ofBits .f32 0x41400000#32
/-- The clip bound of the scaled form: the single-precision number nearest 11.988. -/
def clipK : EReal := Ideal.ofBits .f32 0x413FCED9#32
/-- The clip bound of the dividing form: the single-precision number nearest 0.999. -/
def clipR : EReal := Ideal.ofBits .f32 0x3F7FBE77#32

/-- The numbers 0, …, 11 as the single-precision words the scaled form compares the region with. -/
def lit : Fin 12 → EReal :=
  ![Ideal.ofBits .f32 0x00000000#32, Ideal.ofBits .f32 0x3F800000#32, Ideal.ofBits .f32 0x40000000#32,
    Ideal.ofBits .f32 0x40400000#32, Ideal.ofBits .f32 0x40800000#32, Ideal.ofBits .f32 0x40A00000#32,
    Ideal.ofBits .f32 0x40C00000#32, Ideal.ofBits .f32 0x40E00000#32, Ideal.ofBits .f32 0x41000000#32,
    Ideal.ofBits .f32 0x41100000#32, Ideal.ofBits .f32 0x41200000#32, Ideal.ofBits .f32 0x41300000#32]

/-- The entry of a 12-entry table whose number equals `g` (the largest such number wins), and `zero` when `g` is
    none of 0, …, 11: a chain of twelve selections started from `zero`, the later selection outermost. -/
def pick (g : EReal) (tbl : Fin 12 → EReal) : EReal :=
  if g = lit 11 then tbl 11 else if g = lit 10 then tbl 10 else if g = lit 9 then tbl 9 else
  if g = lit 8 then tbl 8 else if g = lit 7 then tbl 7 else if g = lit 6 then tbl 6 else
  if g = lit 5 then tbl 5 else if g = lit 4 then tbl 4 else if g = lit 3 then tbl 3 else
  if g = lit 2 then tbl 2 else if g = lit 1 then tbl 1 else if g = lit 0 then tbl 0 else zero

/-- The scaled form on one element, given the channel's scale, offset, base table and slope table. -/
def body (x scale off : EReal) (base slope : Fin 12 → EReal) : EReal :=
  let t := x * scale + off
  let g := Ideal.liftRound Int.floor (min clipK (max zero t))
  pick g base + (t - g) * pick g slope

/-- The scaled form on one element from the channel's bounds and knots. -/
def kern (x lo hi : EReal) (p : Fin 13 → EReal) : EReal :=
  let scale := Ideal.div twelve (hi - lo)
  body x scale (-lo * scale) (fun r => p r.castSucc) (fun r => p r.succ - p r.castSucc)

/-- The table column a machine integer names: read signed, a negative one moved up by 13, then clamped into 0, …, 12. -/
def col (k : BitVec 32) : Fin 13 :=
  ⟨min (if k.toInt < 0 then k + 13#32 else k).toInt.toNat 12, Nat.lt_succ_of_le (Nat.min_le_right _ _)⟩

/-- The dividing form on one element. -/
def ref (x lo hi : EReal) (p : Fin 13 → EReal) : EReal :=
  let xn := Ideal.div (x - lo) (hi - lo)
  let g := Ideal.liftRound Int.floor (min clipR (max zero xn) * twelve)
  let d := xn * twelve - g
  let k : BitVec 32 := Ideal.fptosi 32 g
  p (col k) * (one - d) + p (col (k + 1#32)) * d

/-- The channel of an element of the input. -/
def chan (i : SX.Idx) : Fin 256 := ⟨(i 1).val, (i 1).isLt⟩

/-- The two forms on whole arrays: element `i` uses its own channel's bounds and knots. -/
def kernArr (X : SX.Idx → EReal) (P : SP.Idx → EReal) (Bd : SB.Idx → EReal) : SX.Idx → EReal :=
  fun i => kern (X i) (Bd (ix2 (chan i) 0)) (Bd (ix2 (chan i) 1)) (fun r => P (ix2 (chan i) r))

def refArr (X : SX.Idx → EReal) (P : SP.Idx → EReal) (Bd : SB.Idx → EReal) : SX.Idx → EReal :=
  fun i => ref (X i) (Bd (ix2 (chan i) 0)) (Bd (ix2 (chan i) 1)) (fun r => P (ix2 (chan i) r))

end Cert.Pwl

end
-- ==== Proof.PwlLaw.lean ====
/-
  The two forms of the per-channel piecewise-linear lookup agree on real inputs when the bounds differ.

  Put δ = hi − lo ≠ 0 and s = 12·(x − lo)/δ, a real number. The scaled form computes
  x·(12/δ) + (−lo·(12/δ)) and the dividing form computes ((x − lo)/δ)·12: both are s. The scaled form clips
  max 0 s at a bound u with 11 ≤ u < 12; the dividing form clips before multiplying by 12, which is clipping
  max 0 s at 12·(its bound), again a number in [11, 12). For every such u the floor of min u (max 0 s) is
  min ⌊max 0 s⌋ 11, an integer n in 0, …, 11, so both forms find the same region n although their bounds
  differ. The selection chain at n returns entry n of its table; the machine integer of n is n itself, read
  back as column n, and the next one as column n + 1. With d = s − n what is left is
  p n + d·(p (n+1) − p n) = p n·(1 − d) + p (n+1)·d over the reals.

  Products do not distribute over sums at the infinities of the extended reals, so every step below moves a
  coercion from the reals outward and the algebra itself is done in the reals.
-/
import proofs.«128517_j3659312136864_2_alg».proof.Proof.Pwl

noncomputable section

namespace Cert.Pwl

open Idealize.ShloMosaic

namespace Law

/-! ### The values of the single-precision words -/

/-- The all-zero word is the number 0. -/
theorem zero_val : zero = ((0 : ℝ) : EReal) := by
  simp [zero, Ideal.ofBits, Ideal.ieee]

/-- Exponent field 127, fraction 0: the number 1. -/
theorem one_val : one = ((1 : ℝ) : EReal) := by
  simp [one, Ideal.ofBits, Ideal.ieee, -EReal.coe_mul]; norm_num

/-- Exponent field 130, fraction 2^22: (2^23 + 2^22)·2^(−20) = 12. -/
theorem twelve_val : twelve = ((12 : ℝ) : EReal) := by
  simp [twelve, Ideal.ofBits, Ideal.ieee, -EReal.coe_mul]; norm_num

/-- Exponent field 130, fraction 4181721: (2^23 + 4181721)·2^(−20) = 12570329 / 2^20, a little under 11.9881. -/
theorem clipK_val : clipK = ((12570329 / 2 ^ 20 : ℝ) : EReal) := by
  simp [clipK, Ideal.ofBits, Ideal.ieee, -EReal.coe_mul]; norm_num

/-- Exponent field 126, fraction 8371831: (2^23 + 8371831)·2^(−24) = 16760439 / 2^24, a little under 0.99901. -/
theorem clipR_val : clipR = ((16760439 / 2 ^ 24 : ℝ) : EReal) := by
  simp [clipR, Ideal.ofBits, Ideal.ieee, -EReal.coe_mul]; norm_num

/-- The twelve comparison words are the numbers 0, …, 11. -/
theorem lit_val (r : Fin 12) : lit r = (((r.val : ℕ) : ℝ) : EReal) := by
  fin_cases r <;> simp [lit, Ideal.ofBits, Ideal.ieee, -EReal.coe_mul] <;> norm_num

/-! ### Maximum and minimum of real numbers inside the extended reals -/

theorem coe_max' (a b : ℝ) : max (a : EReal) (b : EReal) = ((max a b : ℝ) : EReal) :=
  (EReal.coe_strictMono.monotone.map_max).symm

theorem coe_min' (a b : ℝ) : min (a : EReal) (b : EReal) = ((min a b : ℝ) : EReal) :=
  (EReal.coe_strictMono.monotone.map_min).symm

/-! ### The region -/

/-- Clipping a nonnegative number at any bound u in [11, 12) and taking the floor is taking the floor and
    clipping it at 11: below u the floor is at most ⌊u⌋ = 11, and from u on the floor is at least 11. -/
theorem floor_clip (u s : ℝ) (hu1 : 11 ≤ u) (hu2 : u < 12) :
    ⌊min u (max 0 s)⌋ = min ⌊max 0 s⌋ 11 := by
  have hu : ⌊u⌋ = 11 := by
    rw [Int.floor_eq_iff]; constructor <;> norm_num <;> linarith
  rcases le_total (max 0 s) u with h | h
  · rw [min_eq_right h]
    have h' : ⌊max 0 s⌋ ≤ 11 := hu ▸ Int.floor_mono h
    exact (min_eq_left h').symm
  · rw [min_eq_left h, hu]
    have h' : (11 : ℤ) ≤ ⌊max 0 s⌋ := hu ▸ Int.floor_mono h
    exact (min_eq_right h').symm

/-- The region of a scaled input s: the floor of max 0 s, kept at most 11, as one of 0, …, 11. -/
def region (s : ℝ) : Fin 12 := ⟨(min ⌊max 0 s⌋ 11).toNat, by omega⟩

theorem region_val (s : ℝ) : ((region s).val : ℤ) = min ⌊max 0 s⌋ 11 := by
  have h0 : 0 ≤ ⌊max 0 s⌋ := Int.floor_nonneg.2 (le_max_left 0 s)
  simp only [region]
  omega

/-- Whatever the bound in [11, 12), the clipped floor is the region. -/
theorem floor_clip_region (u s : ℝ) (hu1 : 11 ≤ u) (hu2 : u < 12) :
    ((⌊min u (max 0 s)⌋ : ℤ) : ℝ) = (((region s).val : ℕ) : ℝ) := by
  rw [floor_clip u s hu1 hu2, ← region_val]; push_cast; rfl

/-! ### The selection chain at a region -/

/-- A region's number equals the j-th comparison word exactly when the region is j. -/
theorem lit_eq_iff (r j : Fin 12) : ((((r.val : ℕ) : ℝ)) : EReal) = lit j ↔ r = j := by
  rw [lit_val, EReal.coe_eq_coe_iff, Nat.cast_inj, Fin.val_inj]

/-- At the number of region r the chain of twelve selections returns entry r. -/
theorem pick_nat (r : Fin 12) (tbl : Fin 12 → EReal) :
    pick ((((r.val : ℕ) : ℝ)) : EReal) tbl = tbl r := by
  unfold pick
  simp only [lit_eq_iff]
  fin_cases r <;> rfl

/-! ### The machine integer of a region and the columns it names -/

/-- A region's number is a nonnegative integer far inside the 32-bit signed range, so rounding toward zero and
    clamping to that range leave it as it is. -/
theorem fptosi_nat (r : Fin 12) :
    Ideal.fptosi 32 ((((r.val : ℕ) : ℝ)) : EReal) = BitVec.ofInt 32 (r.val : ℤ) := by
  have h0 : (0 : ℝ) ≤ ((r.val : ℕ) : ℝ) := Nat.cast_nonneg _
  rw [Ideal.fptosi, Ideal.toIntClamped_coe, if_pos h0, Int.floor_natCast]
  congr 1
  have := r.isLt
  norm_num
  omega

/-- The machine integer of region r is nonnegative and at most 11: it names column r … -/
theorem col_nat : ∀ r : Fin 12, col (BitVec.ofInt 32 (r.val : ℤ)) = r.castSucc := by decide

/-- … and the next machine integer, at most 12, names column r + 1 (twelve closed cases each). -/
theorem col_nat_succ : ∀ r : Fin 12, col (BitVec.ofInt 32 (r.val : ℤ) + 1#32) = r.succ := by decide

/-! ### Both forms as one real number each -/

/-- The scaled input s = (x − lo)·(1/(hi − lo))·12. -/
def scaled (x lo hi : ℝ) : ℝ := (x - lo) * (1 / (hi - lo)) * 12

/-- The scaled form: p n + (s − n)·(p (n+1) − p n) at the region n of s. -/
theorem kern_val (x lo hi : ℝ) (p : Fin 13 → ℝ) (h : hi ≠ lo) :
    kern (x : EReal) (lo : EReal) (hi : EReal) (fun r => ((p r : ℝ) : EReal))
      = ((p (region (scaled x lo hi)).castSucc
          + (scaled x lo hi - ((region (scaled x lo hi)).val : ℕ))
            * (p (region (scaled x lo hi)).succ - p (region (scaled x lo hi)).castSucc) : ℝ) : EReal) := by
  have hδ : hi - lo ≠ 0 := sub_ne_zero.2 h
  -- the scale is the real number 12·(1/δ)
  have hscale : Ideal.div twelve ((hi : EReal) - (lo : EReal)) = ((12 * (1 / (hi - lo)) : ℝ) : EReal) := by
    rw [← EReal.coe_sub, Ideal.div_coe hδ, twelve_val, ← EReal.coe_mul]
  -- x·scale + (−lo·scale) = s, by algebra in the reals
  have ht : (x : EReal) * ((12 * (1 / (hi - lo)) : ℝ) : EReal)
      + -(lo : EReal) * ((12 * (1 / (hi - lo)) : ℝ) : EReal) = ((scaled x lo hi : ℝ) : EReal) := by
    rw [← EReal.coe_neg, ← EReal.coe_mul, ← EReal.coe_mul, ← EReal.coe_add]
    congr 1; unfold scaled; ring
  -- the clip bound 12570329 / 2^20 lies in [11, 12)
  have hg : Ideal.liftRound Int.floor (min clipK (max zero ((scaled x lo hi : ℝ) : EReal)))
      = ((((region (scaled x lo hi)).val : ℕ) : ℝ) : EReal) := by
    rw [clipK_val, zero_val, coe_max', coe_min', Ideal.liftRound_coe,
      floor_clip_region _ _ (by norm_num) (by norm_num)]
  simp only [kern, body, hscale, ht, hg, pick_nat]
  rw [← EReal.coe_sub, ← EReal.coe_sub, ← EReal.coe_mul, ← EReal.coe_add]

/-- The dividing form: p n·(1 − (s − n)) + p (n+1)·(s − n) at the same region n of s. -/
theorem ref_val (x lo hi : ℝ) (p : Fin 13 → ℝ) (h : hi ≠ lo) :
    ref (x : EReal) (lo : EReal) (hi : EReal) (fun r => ((p r : ℝ) : EReal))
      = ((p (region (scaled x lo hi)).castSucc * (1 - (scaled x lo hi - ((region (scaled x lo hi)).val : ℕ)))
          + p (region (scaled x lo hi)).succ * (scaled x lo hi - ((region (scaled x lo hi)).val : ℕ)) : ℝ) : EReal) := by
  have hδ : hi - lo ≠ 0 := sub_ne_zero.2 h
  -- the quotient is the real number (x − lo)·(1/δ)
  have hxn : Ideal.div ((x : EReal) - (lo : EReal)) ((hi : EReal) - (lo : EReal))
      = (((x - lo) * (1 / (hi - lo)) : ℝ) : EReal) := by
    rw [← EReal.coe_sub, ← EReal.coe_sub, Ideal.div_coe hδ, ← EReal.coe_mul]
  have hs : (((x - lo) * (1 / (hi - lo)) : ℝ) : EReal) * twelve = ((scaled x lo hi : ℝ) : EReal) := by
    rw [twelve_val, ← EReal.coe_mul]; rfl
  -- multiplying by 12 > 0 goes inside min and max: the clip bound becomes (16760439 / 2^24)·12, in [11, 12)
  have hg : Ideal.liftRound Int.floor
      (min clipR (max zero (((x - lo) * (1 / (hi - lo)) : ℝ) : EReal)) * twelve)
      = ((((region (scaled x lo hi)).val : ℕ) : ℝ) : EReal) := by
    rw [clipR_val, zero_val, twelve_val, coe_max', coe_min', ← EReal.coe_mul, Ideal.liftRound_coe,
      min_mul_of_nonneg _ _ (by norm_num : (0 : ℝ) ≤ 12), max_mul_of_nonneg _ _ (by norm_num : (0 : ℝ) ≤ 12),
      zero_mul]
    exact congrArg _ (floor_clip_region _ (scaled x lo hi) (by norm_num) (by norm_num))
  simp only [ref, hxn, hg, hs, fptosi_nat, col_nat, col_nat_succ, one_val]
  rw [← EReal.coe_sub, ← EReal.coe_sub, ← EReal.coe_mul, ← EReal.coe_mul, ← EReal.coe_add]

end Law

open Law in
/-- On real inputs with hi ≠ lo the scaled form and the dividing form are the same number:
    p n + d·(p (n+1) − p n) = p n·(1 − d) + p (n+1)·d. -/
theorem kern_eq_ref (x lo hi : ℝ) (p : Fin 13 → ℝ) (h : hi ≠ lo) :
    kern (x : EReal) (lo : EReal) (hi : EReal) (fun r => ((p r : ℝ) : EReal))
      = ref (x : EReal) (lo : EReal) (hi : EReal) (fun r => ((p r : ℝ) : EReal)) := by
  rw [kern_val x lo hi p h, ref_val x lo hi p h]
  congr 1; ring

end Cert.Pwl

end
-- ==== Proof.PreRead.lean ====
/-
  What the finiteness precondition says, entry by entry.

  The precondition is the conjunction of four one-bit words: for each of the three arrays, the conjunction over all
  entries of |entry| < +∞, and, over the 256 channels, the conjunction of "upper bound ≠ lower bound".  Read back:
  every entry of the three arrays is a real number, and in every channel the two bounds differ.
-/
import proofs.«128517_j3659312136864_2_alg».proof.Pre_finite_inputs
import proofs.«128517_j3659312136864_2_alg».proof.Proof.Gen.Pre_finite_inputs
import proofs.«128517_j3659312136864_2_alg».proof.Proof.Pwl
import Idealize.ShloMosaic.Lib.ReduceAll
import Idealize.ShloMosaic.Lib.ValueIdx
import Idealize.ShloMosaic.Lib.Pipeline.Value

namespace Cert.PreRead

open Idealize.ShloMosaic Idealize.ShloMosaic.ValueIdx

/-- The rank-0 shape has one index. -/
instance : Subsingleton Cert.Pre_finite_inputs.S_.Idx := ⟨fun a b => funext fun d => d.elim0⟩

/-- The single-precision word 0x7F800000 is +∞. -/
theorem inf_eq_top : Ideal.ofBits .f32 0x7F800000#32 = (⊤ : EReal) := by
  simp [Ideal.ofBits, Ideal.ieee]

/-- An extended real whose absolute value max x (−x) is below +∞ is a real number. -/
theorem real_of_abs_lt_top (x : EReal) (h : max x (-x) < (⊤ : EReal)) : ∃ r : ℝ, x = (r : EReal) := by
  induction x using EReal.rec with
  | bot => simp at h
  | coe r => exact ⟨r, rfl⟩
  | top => simp at h

/-- The ordered "less than" comparison is 1 exactly when the left operand is smaller. -/
theorem cmp_olt_eq_one {x y : EReal} : Ideal.cmp .olt x y = 1#1 ↔ x < y := by
  unfold Ideal.cmp
  by_cases hxy : x < y <;> simp [hxy]

/-- The "not equal" comparison is 1 exactly when the operands differ. -/
theorem cmp_une_eq_one {x y : EReal} : Ideal.cmp .une x y = 1#1 ↔ x ≠ y := by
  unfold Ideal.cmp
  by_cases hxy : x = y <;> simp [hxy]

/-- One entry of |x| < +∞, the bound a scalar constant broadcast to the array's shape: the entry is a real number. -/
theorem real_of_lt_inf {s : Shape}
    (hb : Cert.Pre_finite_inputs.S_.BroadcastsInDim s (![] : Fin 0 → Fin s.rank))
    (x : FVec Ideal s .f32) (i : s.Idx)
    (h : cmpf .olt (Host.absf x)
          (broadcastInDim s ![] hb (constant (F := Ideal) Cert.Pre_finite_inputs.S_ .f32 0x7F800000#32)) i = 1#1) :
    ∃ r : ℝ, x i = (r : EReal) := by
  rw [cmpf_apply, broadcastInDim_apply ![] hb _ i ix0 (fun a => a.elim0), constant_apply, inf_eq_top] at h
  exact real_of_abs_lt_top (x i) (cmp_olt_eq_one.1 h)

/-- A column of the 256×2 bounds array, cut out as a 256×1 block and flattened to 256 entries: its entry at channel c
    is the array's entry (c, k). -/
theorem slice_col_apply {α : Type} (x : Cert.Pre_finite_inputs.S256x2.Idx → α) (k : Nat) (hk : k < 2)
    (hs : Cert.Pre_finite_inputs.S256x2.Slices ![0, k] Cert.Pre_finite_inputs.S256x1)
    (hc : Cert.Pre_finite_inputs.S256x1.ShapeCasts Cert.Pre_finite_inputs.S256) (c : Fin 256) :
    shapeCast Cert.Pre_finite_inputs.S256 (extractStridedSlice Cert.Pre_finite_inputs.S256x1 ![0, k] x hs) hc (ix1 c)
      = x (ix2 c ⟨k, hk⟩) := by
  refine (shapeCast_apply _ hc (ix1 c) (ix2 c (0 : Fin 1)) ?_).trans ?_
  · rw [Shape.rowMajor_val_two, Shape.rowMajor_val_one]
    show c.val * 1 + 0 = c.val
    omega
  · exact extractStridedSlice_apply ![0, k] x hs (ix2 c (0 : Fin 1)) (ix2 c ⟨k, hk⟩) (fun a => match a with
      | ⟨0, _⟩ => by show c.val = 0 + c.val; omega
      | ⟨1, _⟩ => by show k = k + 0; omega)

theorem decode [Cert.Pre_finite_inputs.Facts]
    (x0 : FVec Ideal Cert.Pre_finite_inputs.S32x256x56x56 .f32) (x1 : FVec Ideal Cert.Pre_finite_inputs.S256x13 .f32)
    (x2 : FVec Ideal Cert.Pre_finite_inputs.S256x2 .f32)
    (h : Cert.Pre_finite_inputs.fn (F := Ideal) x0 x1 x2 = fun _ => 1#1) :
    (∀ i, ∃ r : ℝ, x0 i = (r : EReal)) ∧ (∀ i, ∃ r : ℝ, x1 i = (r : EReal)) ∧ (∀ i, ∃ r : ℝ, x2 i = (r : EReal))
      ∧ (∀ c : Fin 256, x2 (ix2 c 1) ≠ x2 (ix2 c 0)) := by
  have h0 := congrFun h ix0
  dsimp only [Cert.Pre_finite_inputs.fn, Cert.Pre_finite_inputs.fn_part1] at h0
  obtain ⟨h123, h4⟩ := IntOp.andi_eq_one.1 (show IntOp.andi _ _ = 1#1 from h0)
  obtain ⟨h12, h3⟩ := IntOp.andi_eq_one.1 (show IntOp.andi _ _ = 1#1 from h123)
  obtain ⟨h1, h2⟩ := IntOp.andi_eq_one.1 (show IntOp.andi _ _ = 1#1 from h12)
  refine ⟨fun i => ?_, fun i => ?_, fun i => ?_, fun c => ?_⟩
  · exact real_of_lt_inf _ x0 i (Host.reduce_andi_all _ _ _ _ ix0 h1 i)
  · exact real_of_lt_inf _ x1 i (Host.reduce_andi_all _ _ _ _ ix0 h2 i)
  · exact real_of_lt_inf _ x2 i (Host.reduce_andi_all _ _ _ _ ix0 h3 i)
  · have e := Host.reduce_andi_all _ _ _ _ ix0 h4 (ix1 c)
    rw [cmpf_apply, slice_col_apply x2 1 (by omega), slice_col_apply x2 0 (by omega)] at e
    exact cmp_une_eq_one.1 e

end Cert.PreRead
-- ==== Proof.BodyRead.lean ====
/-
  The kernel body's stored block, read at an index, is the scaled form of the piecewise-linear lookup.

  One grid point stores one block; element `(b, c, q)` of it is computed from element `(b, c, q)` of the input block,
  row `c` of the scale/offset block and row `c` of the base and slope tables: `t = x·scale + off`, the region
  `g = ⌊min clipK (max 0 t)⌋`, then a chain of twelve selections on `g = 0, …, 11` picks the base and slope entries,
  and the result is `base + (t − g)·slope`. Each table column reaches the block through a chain of re-indexings
  (column `[32,1]` → `[32]` → `[1,32,1]` → broadcast to `[8,32,3136]`) that reads row `c` of the column.
-/
import proofs.«128517_j3659312136864_2_alg».proof.Proof.Gen.KernelIdeal.Frame
import proofs.«128517_j3659312136864_2_alg».proof.Proof.Pwl
import Idealize.ShloMosaic.Lib.ValueIdx
import Idealize.ShloMosaic.Lib.ValueLayout
import Idealize.ShloMosaic.Lib.Pipeline.Value

noncomputable section

namespace Cert.BodyRead

open Cert.KernelIdeal Cert.KernelIdeal.Gen Idealize.ShloMosaic Idealize.ShloMosaic.ValueIdx

/-! ## Words and re-indexings at an index -/

theorem hz3 : (![0, 0, 0] : Fin 3 → Nat) = fun _ => 0 := funext fun a => by fin_cases a <;> rfl
theorem hz2 : (![0, 0] : Fin 2 → Nat) = fun _ => 0 := funext fun a => by fin_cases a <;> rfl

/-- A selection on an equality comparison is the `if` on the equality. -/
theorem select_cmp (x y a b : EReal) : Scalar.select (Ideal.cmp .oeq x y) a b = if x = y then a else b := by
  unfold Scalar.select Ideal.cmp
  by_cases h : x = y <;> simp [h]

/-- A `[1,32,1]` column broadcast over the block reads its row `c`. -/
theorem bc_apply {α : Type} (w : S1x32x1.Idx → α) (h : S1x32x1.Broadcasts S8x32x3136) (b : Fin 8) (c : Fin 32) (q : Fin 3136) :
    broadcastTo S8x32x3136 w h (ix3 b c q) = w (ix3 (0 : Fin 1) c (0 : Fin 1)) := by
  refine broadcastTo_apply w h (ix3 b c q) (ix3 (0 : Fin 1) c (0 : Fin 1)) fun ax => ?_
  match ax with
  | ⟨0, _⟩ => rfl
  | ⟨1, _⟩ => rfl
  | ⟨2, _⟩ => rfl

/-- A `[32,1]` column viewed `[32]` then `[1,32,1]` reads its row `c`. -/
theorem cast_col {α : Type} (v : S32x1.Idx → α) (h1 : S32x1.ShapeCasts S32) (h2 : S32.ShapeCasts S1x32x1)
    (u : Fin 1) (c : Fin 32) (z : Fin 1) :
    shapeCast S1x32x1 (shapeCast S32 v h1) h2 (ix3 u c z) = v (ix2 c (0 : Fin 1)) := by
  refine (shapeCast_apply _ h2 (ix3 u c z) (ix1 c) ?_).trans (shapeCast_apply v h1 (ix1 c) (ix2 c (0 : Fin 1)) ?_)
  · rw [Shape.rowMajor_val_one, Shape.rowMajor_val_three]
    show c.val = (u.val * 32 + c.val) * 1 + z.val
    omega
  · rw [Shape.rowMajor_val_two, Shape.rowMajor_val_one]
    show c.val * 1 + 0 = c.val
    omega

/-- A load of column `K` of a `[32,12]` table reads, at row `c`, the table at `(c, K)`. -/
theorem ld_col (x : Vec Ideal S32x12 .f32) (K : Nat) (hK : K < 12) (inb : ∀ a, (![0, K] : Fin 2 → Nat) a + S32x1.size a ≤ S32x12.size a)
    (c : Fin 32) :
    View.ld x (Rect.unit (s := S32x12) ![0, K] S32x1.size inb) (ix2 c (0 : Fin 1)) = x (ix2 c (⟨K, hK⟩ : Fin 12)) := by
  show x _ = x _
  refine congrArg x (funext fun a => Fin.ext ?_)
  match a with
  | ⟨0, _⟩ => show 0 + 1 * c.val = c.val; omega
  | ⟨1, _⟩ => show K + 1 * 0 = K; omega

/-! ## The scaled input, the region and the distance -/

/-- The scaled input `t = x·scale + off`: the scale is column 0 and the offset column 1 of the `[32,2]` block. -/
theorem pay2_apply (v0 : Vec Ideal S8x32x3136 .f32) (v2 : Vec Ideal S32x2 .f32) (b : Fin 8) (c : Fin 32) (q : Fin 3136) :
    k0_pay2 v0 v2 (ix3 b c q) = v0 (ix3 b c q) * v2 (ix2 c 0) + v2 (ix2 c 1) := by
  unfold k0_pay2
  refine (addf_apply _ _ _).trans ?_
  refine congrArg₂ (· + ·) ((mulf_apply _ _ _).trans (congrArg₂ (· * ·) ?_ ?_)) ?_
  · exact congrFun (shapeCast_self v0 _) _
  · refine (bc_apply _ _ b c q).trans ((cast_col _ _ _ 0 c 0).trans ?_)
    refine (slice2_axis1_apply 0 _ _ c (0 : Fin 1) (0 : Fin 2) rfl).trans ?_
    exact congrFun (shapeCast_self v2 _) _
  · refine (bc_apply _ _ b c q).trans ((cast_col _ _ _ 0 c 0).trans ?_)
    refine (slice2_axis1_apply 1 _ _ c (0 : Fin 1) (1 : Fin 2) rfl).trans ?_
    exact congrFun (shapeCast_self v2 _) _

/-- The region `g`: the floor of the scaled input clipped to `[0, clipK]`. -/
theorem pay3_apply (v0 : Vec Ideal S8x32x3136 .f32) (v2 : Vec Ideal S32x2 .f32) (i : S8x32x3136.Idx) :
    k0_pay3 v0 v2 i = Ideal.liftRound Int.floor (min Pwl.clipK (max Pwl.zero (k0_pay2 v0 v2 i))) := rfl

/-- The distance `t − g`. -/
theorem pay4_apply (v0 : Vec Ideal S8x32x3136 .f32) (v2 : Vec Ideal S32x2 .f32) (i : S8x32x3136.Idx) :
    k0_pay4 v0 v2 i = k0_pay2 v0 v2 i - k0_pay3 v0 v2 i := rfl

/-! ## The comparisons of the region with 0, …, 10 -/

theorem pay5_apply (v0 : Vec Ideal S8x32x3136 .f32) (v2 : Vec Ideal S32x2 .f32) (i : S8x32x3136.Idx) :
    k0_pay5 v0 v2 i = Ideal.cmp .oeq (k0_pay3 v0 v2 i) (Ideal.ofBits .f32 0x00000000#32) := rfl
theorem pay8_apply (v0 : Vec Ideal S8x32x3136 .f32) (v2 : Vec Ideal S32x2 .f32) (i : S8x32x3136.Idx) :
    k0_pay8 v0 v2 i = Ideal.cmp .oeq (k0_pay3 v0 v2 i) (Ideal.ofBits .f32 0x3F800000#32) := rfl
theorem pay10_apply (v18 : FVec Ideal S8x32x3136 .f32) (i : S8x32x3136.Idx) :
    k0_pay10 v18 i = Ideal.cmp .oeq (v18 i) (Ideal.ofBits .f32 0x40000000#32) := rfl
theorem pay11_apply (v18 : FVec Ideal S8x32x3136 .f32) (i : S8x32x3136.Idx) :
    k0_pay11 v18 i = Ideal.cmp .oeq (v18 i) (Ideal.ofBits .f32 0x40400000#32) := rfl
theorem pay14_apply (v18 : FVec Ideal S8x32x3136 .f32) (i : S8x32x3136.Idx) :
    k0_pay14 v18 i = Ideal.cmp .oeq (v18 i) (Ideal.ofBits .f32 0x40800000#32) := rfl
theorem pay16_apply (v18 : FVec Ideal S8x32x3136 .f32) (i : S8x32x3136.Idx) :
    k0_pay16 v18 i = Ideal.cmp .oeq (v18 i) (Ideal.ofBits .f32 0x40A00000#32) := rfl
theorem pay17_apply (v18 : FVec Ideal S8x32x3136 .f32) (i : S8x32x3136.Idx) :
    k0_pay17 v18 i = Ideal.cmp .oeq (v18 i) (Ideal.ofBits .f32 0x40C00000#32) := rfl
theorem pay20_apply (v18 : FVec Ideal S8x32x3136 .f32) (i : S8x32x3136.Idx) :
    k0_pay20 v18 i = Ideal.cmp .oeq (v18 i) (Ideal.ofBits .f32 0x40E00000#32) := rfl
theorem pay23_apply (v18 : FVec Ideal S8x32x3136 .f32) (i : S8x32x3136.Idx) :
    k0_pay23 v18 i = Ideal.cmp .oeq (v18 i) (Ideal.ofBits .f32 0x41000000#32) := rfl
theorem pay24_apply (v18 : FVec Ideal S8x32x3136 .f32) (i : S8x32x3136.Idx) :
    k0_pay24 v18 i = Ideal.cmp .oeq (v18 i) (Ideal.ofBits .f32 0x41100000#32) := rfl
theorem pay26_apply (v18 : FVec Ideal S8x32x3136 .f32) (i : S8x32x3136.Idx) :
    k0_pay26 v18 i = Ideal.cmp .oeq (v18 i) (Ideal.ofBits .f32 0x41200000#32) := rfl

/-! ## The columns handed on already viewed `[1,32,1]` -/

theorem pay9_apply (v : Vec Ideal S32x1 .f32) (u : Fin 1) (c : Fin 32) (z : Fin 1) :
    k0_pay9 v (ix3 u c z) = v (ix2 c 0) := cast_col v _ _ u c z
theorem pay15_apply (v : Vec Ideal S32x1 .f32) (u : Fin 1) (c : Fin 32) (z : Fin 1) :
    k0_pay15 v (ix3 u c z) = v (ix2 c 0) := cast_col v _ _ u c z
theorem pay21_apply (v : Vec Ideal S32x1 .f32) (u : Fin 1) (c : Fin 32) (z : Fin 1) :
    k0_pay21 v (ix3 u c z) = v (ix2 c 0) := cast_col v _ _ u c z
theorem pay22_apply (v : Vec Ideal S32x1 .f32) (u : Fin 1) (c : Fin 32) (z : Fin 1) :
    k0_pay22 v (ix3 u c z) = v (ix2 c 0) := by
  unfold k0_pay22
  exact (congrFun (shapeCast_self _ _) _).trans (cast_col v _ _ u c z)
theorem pay28_apply (v : Vec Ideal S32x1 .f32) (u : Fin 1) (c : Fin 32) (z : Fin 1) :
    k0_pay28 v (ix3 u c z) = v (ix2 c 0) := by
  unfold k0_pay28
  exact (congrFun (shapeCast_self _ _) _).trans (cast_col v _ _ u c z)

/-! ## One selection step at an index -/

/-- A step whose column arrives as `[32,1]`. -/
theorem step_col (m : IVec S8x32x3136 1) (v : Vec Ideal S32x1 .f32) (prev : FVec Ideal S8x32x3136 .f32)
    (h1 : S32x1.ShapeCasts S32) (h2 : S32.ShapeCasts S1x32x1) (h3 : S1x32x1.ShapeCasts S1x32x1) (h4 : S1x32x1.Broadcasts S8x32x3136)
    (b : Fin 8) (c : Fin 32) (q : Fin 3136) :
    select m (broadcastTo S8x32x3136 (shapeCast S1x32x1 (shapeCast S1x32x1 (shapeCast S32 v h1) h2) h3) h4) prev (ix3 b c q)
      = Scalar.select (m (ix3 b c q)) (v (ix2 c 0)) (prev (ix3 b c q)) := by
  refine (select_apply _ _ _ _).trans ?_
  refine congrArg (fun z => Scalar.select (m (ix3 b c q)) z (prev (ix3 b c q))) ?_
  exact (bc_apply _ _ b c q).trans ((congrFun (shapeCast_self _ _) _).trans (cast_col v _ _ 0 c 0))

/-- A step whose column arrives as `[1,32,1]` and goes through the identity view. -/
theorem step_col1 (m : IVec S8x32x3136 1) (w : FVec Ideal S1x32x1 .f32) (prev : FVec Ideal S8x32x3136 .f32)
    (h3 : S1x32x1.ShapeCasts S1x32x1) (h4 : S1x32x1.Broadcasts S8x32x3136) (b : Fin 8) (c : Fin 32) (q : Fin 3136) :
    select m (broadcastTo S8x32x3136 (shapeCast S1x32x1 w h3) h4) prev (ix3 b c q)
      = Scalar.select (m (ix3 b c q)) (w (ix3 (0 : Fin 1) c (0 : Fin 1))) (prev (ix3 b c q)) := by
  refine (select_apply _ _ _ _).trans ?_
  refine congrArg (fun z => Scalar.select (m (ix3 b c q)) z (prev (ix3 b c q))) ?_
  exact (bc_apply _ _ b c q).trans (congrFun (shapeCast_self _ _) _)

/-- A step whose column arrives as `[1,32,1]` and is broadcast as it is. -/
theorem step_col0 (m : IVec S8x32x3136 1) (w : FVec Ideal S1x32x1 .f32) (prev : FVec Ideal S8x32x3136 .f32)
    (h4 : S1x32x1.Broadcasts S8x32x3136) (b : Fin 8) (c : Fin 32) (q : Fin 3136) :
    select m (broadcastTo S8x32x3136 w h4) prev (ix3 b c q)
      = Scalar.select (m (ix3 b c q)) (w (ix3 (0 : Fin 1) c (0 : Fin 1))) (prev (ix3 b c q)) := by
  refine (select_apply _ _ _ _).trans ?_
  refine congrArg (fun z => Scalar.select (m (ix3 b c q)) z (prev (ix3 b c q))) ?_
  exact bc_apply _ _ b c q

/-! ## The two selection chains, stage by stage -/

/-- The base chain's step 0, started from zero. -/
theorem pay6_apply (v0 : Vec Ideal S8x32x3136 .f32) (v2 : Vec Ideal S32x2 .f32) (v24 : Vec Ideal S32x1 .f32)
    (b : Fin 8) (c : Fin 32) (q : Fin 3136) :
    k0_pay6 v0 v2 v24 (ix3 b c q)
      = Scalar.select (k0_pay5 v0 v2 (ix3 b c q)) (v24 (ix2 c 0)) (Ideal.ofBits .f32 0x00000000#32) := by
  unfold k0_pay6
  exact step_col _ v24 _ _ _ _ _ b c q

/-- The slope chain's step 0, started from zero. -/
theorem pay7_apply (v0 : Vec Ideal S8x32x3136 .f32) (v2 : Vec Ideal S32x2 .f32) (v27 : Vec Ideal S32x1 .f32)
    (b : Fin 8) (c : Fin 32) (q : Fin 3136) :
    k0_pay7 v0 v2 v27 (ix3 b c q)
      = Scalar.select (k0_pay5 v0 v2 (ix3 b c q)) (v27 (ix2 c 0)) (Ideal.ofBits .f32 0x00000000#32) := by
  unfold k0_pay7
  exact step_col _ v27 _ _ _ _ _ b c q

/-- The base chain's steps 1, 2, 3. -/
theorem pay12_apply (v18 v32 : FVec Ideal S8x32x3136 .f32) (v37 : IVec S8x32x3136 1) (v40 : FVec Ideal S1x32x1 .f32)
    (v52 v66 : Vec Ideal S32x1 .f32) (b : Fin 8) (c : Fin 32) (q : Fin 3136) :
    k0_pay12 v18 v32 v37 v40 v52 v66 (ix3 b c q)
      = Scalar.select (k0_pay11 v18 (ix3 b c q)) (v66 (ix2 c 0))
          (Scalar.select (k0_pay10 v18 (ix3 b c q)) (v52 (ix2 c 0))
            (Scalar.select (v37 (ix3 b c q)) (v40 (ix3 (0 : Fin 1) c (0 : Fin 1))) (v32 (ix3 b c q)))) := by
  unfold k0_pay12
  refine (step_col _ v66 _ _ _ _ _ b c q).trans (congrArg (Scalar.select _ _) ?_)
  refine (step_col _ v52 _ _ _ _ _ b c q).trans (congrArg (Scalar.select _ _) ?_)
  exact step_col1 _ v40 _ _ _ b c q

/-- The slope chain's steps 1, 2, 3. -/
theorem pay13_apply (v18 v35 : FVec Ideal S8x32x3136 .f32) (v37 : IVec S8x32x3136 1)
    (v41 v55 v69 : Vec Ideal S32x1 .f32) (b : Fin 8) (c : Fin 32) (q : Fin 3136) :
    k0_pay13 v18 v35 v37 v41 v55 v69 (ix3 b c q)
      = Scalar.select (k0_pay11 v18 (ix3 b c q)) (v69 (ix2 c 0))
          (Scalar.select (k0_pay10 v18 (ix3 b c q)) (v55 (ix2 c 0))
            (Scalar.select (v37 (ix3 b c q)) (v41 (ix2 c 0)) (v35 (ix3 b c q)))) := by
  unfold k0_pay13
  refine (step_col _ v69 _ _ _ _ _ b c q).trans (congrArg (Scalar.select _ _) ?_)
  refine (step_col _ v55 _ _ _ _ _ b c q).trans (congrArg (Scalar.select _ _) ?_)
  exact step_col _ v41 _ _ _ _ _ b c q

/-- The base chain's steps 4, 5, 6. -/
theorem pay18_apply (v18 v74 : FVec Ideal S8x32x3136 .f32) (v79 : IVec S8x32x3136 1) (v82 : FVec Ideal S1x32x1 .f32)
    (v94 v108 : Vec Ideal S32x1 .f32) (b : Fin 8) (c : Fin 32) (q : Fin 3136) :
    k0_pay18 v18 v74 v79 v82 v94 v108 (ix3 b c q)
      = Scalar.select (k0_pay17 v18 (ix3 b c q)) (v108 (ix2 c 0))
          (Scalar.select (k0_pay16 v18 (ix3 b c q)) (v94 (ix2 c 0))
            (Scalar.select (v79 (ix3 b c q)) (v82 (ix3 (0 : Fin 1) c (0 : Fin 1))) (v74 (ix3 b c q)))) := by
  unfold k0_pay18
  refine (step_col _ v108 _ _ _ _ _ b c q).trans (congrArg (Scalar.select _ _) ?_)
  refine (step_col _ v94 _ _ _ _ _ b c q).trans (congrArg (Scalar.select _ _) ?_)
  exact step_col1 _ v82 _ _ _ b c q

/-- The slope chain's steps 4, 5, 6. -/
theorem pay19_apply (v18 v77 : FVec Ideal S8x32x3136 .f32) (v79 : IVec S8x32x3136 1)
    (v83 v97 v111 : Vec Ideal S32x1 .f32) (b : Fin 8) (c : Fin 32) (q : Fin 3136) :
    k0_pay19 v18 v77 v79 v83 v97 v111 (ix3 b c q)
      = Scalar.select (k0_pay17 v18 (ix3 b c q)) (v111 (ix2 c 0))
          (Scalar.select (k0_pay16 v18 (ix3 b c q)) (v97 (ix2 c 0))
            (Scalar.select (v79 (ix3 b c q)) (v83 (ix2 c 0)) (v77 (ix3 b c q)))) := by
  unfold k0_pay19
  refine (step_col _ v111 _ _ _ _ _ b c q).trans (congrArg (Scalar.select _ _) ?_)
  refine (step_col _ v97 _ _ _ _ _ b c q).trans (congrArg (Scalar.select _ _) ?_)
  exact step_col _ v83 _ _ _ _ _ b c q

/-- The slope chain's steps 7, 8, 9. -/
theorem pay25_apply (v18 v119 : FVec Ideal S8x32x3136 .f32) (v121 : IVec S8x32x3136 1) (v127 : FVec Ideal S1x32x1 .f32)
    (v139 v153 : Vec Ideal S32x1 .f32) (b : Fin 8) (c : Fin 32) (q : Fin 3136) :
    k0_pay25 v18 v119 v121 v127 v139 v153 (ix3 b c q)
      = Scalar.select (k0_pay24 v18 (ix3 b c q)) (v153 (ix2 c 0))
          (Scalar.select (k0_pay23 v18 (ix3 b c q)) (v139 (ix2 c 0))
            (Scalar.select (v121 (ix3 b c q)) (v127 (ix3 (0 : Fin 1) c (0 : Fin 1))) (v119 (ix3 b c q)))) := by
  unfold k0_pay25
  refine (step_col _ v153 _ _ _ _ _ b c q).trans (congrArg (Scalar.select _ _) ?_)
  refine (step_col _ v139 _ _ _ _ _ b c q).trans (congrArg (Scalar.select _ _) ?_)
  exact step_col1 _ v127 _ _ _ b c q

/-- The base chain's steps 7, 8, 9, 10. -/
theorem pay27_apply (v18 v116 : FVec Ideal S8x32x3136 .f32) (v121 : IVec S8x32x3136 1) (v128 : FVec Ideal S1x32x1 .f32)
    (v136 v150 v164 : Vec Ideal S32x1 .f32) (b : Fin 8) (c : Fin 32) (q : Fin 3136) :
    k0_pay27 v18 v116 v121 v128 v136 v150 v164 (ix3 b c q)
      = Scalar.select (k0_pay26 v18 (ix3 b c q)) (v164 (ix2 c 0))
          (Scalar.select (k0_pay24 v18 (ix3 b c q)) (v150 (ix2 c 0))
            (Scalar.select (k0_pay23 v18 (ix3 b c q)) (v136 (ix2 c 0))
              (Scalar.select (v121 (ix3 b c q)) (v128 (ix3 (0 : Fin 1) c (0 : Fin 1))) (v116 (ix3 b c q))))) := by
  unfold k0_pay27
  refine (step_col _ v164 _ _ _ _ _ b c q).trans (congrArg (Scalar.select _ _) ?_)
  refine (step_col _ v150 _ _ _ _ _ b c q).trans (congrArg (Scalar.select _ _) ?_)
  refine (step_col _ v136 _ _ _ _ _ b c q).trans (congrArg (Scalar.select _ _) ?_)
  exact step_col0 _ v128 _ _ b c q

/-- The last steps of both chains (the slope's 10 and 11, the base's 11) and the interpolation `base + (t − g)·slope`. -/
theorem pay1_apply (v18 v19 v161 : FVec Ideal S8x32x3136 .f32) (v163 : IVec S8x32x3136 1) (v172 : FVec Ideal S8x32x3136 .f32)
    (v173 : FVec Ideal S1x32x1 .f32) (v178 v181 : Vec Ideal S32x1 .f32) (b : Fin 8) (c : Fin 32) (q : Fin 3136) :
    k0_pay1 v18 v19 v161 v163 v172 v173 v178 v181 (ix3 b c q)
      = Scalar.select (Ideal.cmp .oeq (v18 (ix3 b c q)) (Ideal.ofBits .f32 0x41300000#32)) (v178 (ix2 c 0)) (v172 (ix3 b c q))
        + v19 (ix3 b c q)
          * Scalar.select (Ideal.cmp .oeq (v18 (ix3 b c q)) (Ideal.ofBits .f32 0x41300000#32)) (v181 (ix2 c 0))
              (Scalar.select (v163 (ix3 b c q)) (v173 (ix3 (0 : Fin 1) c (0 : Fin 1))) (v161 (ix3 b c q))) := by
  unfold k0_pay1
  refine (addf_apply _ _ _).trans ?_
  refine congrArg₂ (· + ·) ?_ ((mulf_apply _ _ _).trans (congrArg (v19 (ix3 b c q) * ·) ?_))
  · exact step_col _ v178 _ _ _ _ _ b c q
  · refine (step_col _ v181 _ _ _ _ _ b c q).trans (congrArg (Scalar.select _ _) ?_)
    exact step_col0 _ v173 _ _ b c q

/-! ## The stored block at an index -/

theorem lit0 : Pwl.lit 0 = Ideal.ofBits .f32 0x00000000#32 := rfl
theorem lit1 : Pwl.lit 1 = Ideal.ofBits .f32 0x3F800000#32 := rfl
theorem lit2 : Pwl.lit 2 = Ideal.ofBits .f32 0x40000000#32 := rfl
theorem lit3 : Pwl.lit 3 = Ideal.ofBits .f32 0x40400000#32 := rfl
theorem lit4 : Pwl.lit 4 = Ideal.ofBits .f32 0x40800000#32 := rfl
theorem lit5 : Pwl.lit 5 = Ideal.ofBits .f32 0x40A00000#32 := rfl
theorem lit6 : Pwl.lit 6 = Ideal.ofBits .f32 0x40C00000#32 := rfl
theorem lit7 : Pwl.lit 7 = Ideal.ofBits .f32 0x40E00000#32 := rfl
theorem lit8 : Pwl.lit 8 = Ideal.ofBits .f32 0x41000000#32 := rfl
theorem lit9 : Pwl.lit 9 = Ideal.ofBits .f32 0x41100000#32 := rfl
theorem lit10 : Pwl.lit 10 = Ideal.ofBits .f32 0x41200000#32 := rfl
theorem lit11 : Pwl.lit 11 = Ideal.ofBits .f32 0x41300000#32 := rfl

theorem out_apply (x0 : Vec Ideal S8x32x3136 .f32) (x1 x2 : Vec Ideal S32x12 .f32) (x3 : Vec Ideal S32x2 .f32)
    (b : Fin 8) (c : Fin 32) (q : Fin 3136) :
    Cert.KernelIdeal.Gen.out0_4 (F := Ideal) x0 x1 x2 x3 (ix3 b c q)
      = Cert.Pwl.body (x0 (ix3 b c q)) (x3 (ix2 c 0)) (x3 (ix2 c 1)) (fun r => x1 (ix2 c r)) (fun r => x2 (ix2 c r)) := by
  unfold out0_4
  rw [View.canon_unit_zero hz3]
  simp only [View.ld_unit_zero (S := S8x32x3136) hz3, View.ld_unit_zero (S := S32x2) hz2]
  rw [pay1_apply, pay27_apply, pay25_apply, pay18_apply, pay19_apply, pay12_apply, pay13_apply, pay6_apply, pay7_apply,
    pay28_apply, pay22_apply, pay21_apply, pay15_apply, pay9_apply]
  rw [ld_col x1 0 (by decide) _ c, ld_col x1 1 (by decide) _ c, ld_col x1 2 (by decide) _ c, ld_col x1 3 (by decide) _ c,
    ld_col x1 4 (by decide) _ c, ld_col x1 5 (by decide) _ c, ld_col x1 6 (by decide) _ c, ld_col x1 7 (by decide) _ c,
    ld_col x1 8 (by decide) _ c, ld_col x1 9 (by decide) _ c, ld_col x1 10 (by decide) _ c, ld_col x1 11 (by decide) _ c,
    ld_col x2 0 (by decide) _ c, ld_col x2 1 (by decide) _ c, ld_col x2 2 (by decide) _ c, ld_col x2 3 (by decide) _ c,
    ld_col x2 4 (by decide) _ c, ld_col x2 5 (by decide) _ c, ld_col x2 6 (by decide) _ c, ld_col x2 7 (by decide) _ c,
    ld_col x2 8 (by decide) _ c, ld_col x2 9 (by decide) _ c, ld_col x2 10 (by decide) _ c, ld_col x2 11 (by decide) _ c]
  rw [pay5_apply, pay8_apply, pay10_apply, pay11_apply, pay14_apply, pay16_apply, pay17_apply, pay20_apply, pay23_apply,
    pay24_apply, pay26_apply]
  simp only [select_cmp]
  rw [pay4_apply, pay3_apply, pay2_apply]
  unfold Pwl.body Pwl.pick
  rw [lit0, lit1, lit2, lit3, lit4, lit5, lit6, lit7, lit8, lit9, lit10, lit11]
  rfl

end Cert.BodyRead

end
-- ==== Proof.KernelHost.lean ====
/-
  The host's part of the scaled lookup, as pure functions of the argument arrays.

  Before the launch the host reshapes the input [32,256,56,56] to [32,256,3136] (`hostX`), takes the first twelve
  knots of every channel as the base table (`hostBase`), the differences of consecutive knots as the slope table
  (`hostSlope`), and from the bounds the per-channel scale 12/(hi − lo) and offset −lo·scale, set side by side
  as a [256,2] array (`hostSO`). The launch computes, entry by entry of [32,256,3136], the scaled form
  `Pwl.body` of the entry and of its channel's row of the three small arrays (`blockFn`); after it the host
  reshapes back to [32,256,56,56]. Read at an index (b, c, h, w), with position h·56 + w on the merged axis,
  the whole is `Pwl.kern` of the input's entry and of channel c's bounds and knots: `host_eq`.
-/
import proofs.«128517_j3659312136864_2_alg».proof.Proof.Gen.KernelIdeal
import proofs.«128517_j3659312136864_2_alg».proof.Proof.Pwl
import Idealize.ShloMosaic.Lib.ValueIdx
import Idealize.ShloMosaic.Lib.Pipeline.Value

noncomputable section

namespace Cert.KernelHost

open Cert.KernelIdeal Cert.KernelIdeal.Gen
open Idealize.ShloMosaic Idealize.ShloMosaic.ValueIdx

/-- The channel of an entry of the merged array. -/
def ch3 (j : S32x256x3136.Idx) : Fin 256 := ⟨(j 1).val, (j 1).isLt⟩

/-- The launch's result as one function: entry `j` is the scaled form of entry `j` of the merged input and of row
    `ch3 j` of the base table, the slope table and the scale/offset array. -/
def blockFn (A0 : S32x256x3136.Idx → EReal) (A1 A2 : S256x12.Idx → EReal) (A3 : S256x2.Idx → EReal) :
    S32x256x3136.Idx → EReal :=
  fun j => Cert.Pwl.body (A0 j) (A3 (ix2 (ch3 j) 0)) (A3 (ix2 (ch3 j) 1))
    (fun r => A1 (ix2 (ch3 j) r)) (fun r => A2 (ix2 (ch3 j) r))

/-- The merged input. -/
def hostX (X : FVec Ideal S32x256x56x56 .f32) : FVec Ideal S32x256x3136 .f32 :=
  shapeCast S32x256x3136 X Gen.shapeCasts_S32x256x56x56_S32x256x3136

/-- The base table: knots 0, …, 11 of every channel. -/
def hostBase (P : FVec Ideal S256x13 .f32) : FVec Ideal S256x12 .f32 :=
  extractStridedSlice S256x12 ![0, 0] P Gen.slices_S256x13_S256x12_0_0

/-- The slope table: knot r+1 minus knot r. -/
def hostSlope (P : FVec Ideal S256x13 .f32) : FVec Ideal S256x12 .f32 :=
  subf (extractStridedSlice S256x12 ![0, 1] P Gen.slices_S256x13_S256x12_0_1)
    (extractStridedSlice S256x12 ![0, 0] P Gen.slices_S256x13_S256x12_0_0)

/-- The lower and the upper bounds as vectors over the channels. -/
def hostLo (Bd : FVec Ideal S256x2 .f32) : FVec Ideal S256 .f32 :=
  shapeCast S256 (extractStridedSlice S256x1 ![0, 0] Bd Gen.slices_S256x2_S256x1_0_0) Gen.shapeCasts_S256x1_S256
def hostHi (Bd : FVec Ideal S256x2 .f32) : FVec Ideal S256 .f32 :=
  shapeCast S256 (extractStridedSlice S256x1 ![0, 1] Bd Gen.slices_S256x2_S256x1_0_1) Gen.shapeCasts_S256x1_S256

/-- The scale 12/(hi − lo) over the channels. -/
def hostScale (Bd : FVec Ideal S256x2 .f32) : FVec Ideal S256 .f32 :=
  Host.divf (broadcastInDim S256 ![] Gen.bcast_S_S256 (constant (F := Ideal) S_ .f32 0x41400000#32))
    (subf (hostHi Bd) (hostLo Bd))

/-- Scale and offset −lo·scale, as the two columns of a [256,2] array. -/
def hostSO (Bd : FVec Ideal S256x2 .f32) : FVec Ideal S256x2 .f32 :=
  concatenate S256x2 1
    [⟨S256x1, broadcastInDim S256x1 ![0] Gen.bcast_S256_S256x1_0 (hostScale Bd)⟩,
     ⟨S256x1, broadcastInDim S256x1 ![0] Gen.bcast_S256_S256x1_0 (mulf (Host.negf (hostLo Bd)) (hostScale Bd))⟩]
    Gen.concatenates_S256x1_S256x1_S256x2_d1

/-! ## Each array at an index -/

theorem hostX_apply (X : FVec Ideal S32x256x56x56 .f32) (b : Fin 32) (c : Fin 256) (h w : Fin 56)
    (q : Fin 3136) (hq : q.val = h.val * 56 + w.val) : hostX X (ix3 b c q) = X (ix4 b c h w) := by
  unfold hostX
  refine shapeCast_apply X _ (ix3 b c q) (ix4 b c h w) ?_
  rw [Shape.rowMajor_val_four, Shape.rowMajor_val_three]
  show ((b.val * 256 + c.val) * 56 + h.val) * 56 + w.val = (b.val * 256 + c.val) * 3136 + q.val
  omega

theorem hostBase_apply (P : FVec Ideal S256x13 .f32) (c : Fin 256) (r : Fin 12) :
    hostBase P (ix2 c r) = P (ix2 c r.castSucc) := by
  unfold hostBase
  refine extractStridedSlice_apply ![0, 0] P _ (ix2 c r) (ix2 c r.castSucc) (fun a => ?_)
  match a with
  | ⟨0, _⟩ => show c.val = 0 + c.val; omega
  | ⟨1, _⟩ => show r.val = 0 + r.val; omega

theorem hostSlope_apply (P : FVec Ideal S256x13 .f32) (c : Fin 256) (r : Fin 12) :
    hostSlope P (ix2 c r) = P (ix2 c r.succ) - P (ix2 c r.castSucc) := by
  unfold hostSlope
  show extractStridedSlice S256x12 ![0, 1] P _ (ix2 c r) - extractStridedSlice S256x12 ![0, 0] P _ (ix2 c r) = _
  congr 1
  · refine extractStridedSlice_apply ![0, 1] P _ (ix2 c r) (ix2 c r.succ) (fun a => ?_)
    match a with
    | ⟨0, _⟩ => show c.val = 0 + c.val; omega
    | ⟨1, _⟩ => show r.val + 1 = 1 + r.val; omega
  · exact hostBase_apply P c r

theorem hostLo_apply (Bd : FVec Ideal S256x2 .f32) (c : Fin 256) : hostLo Bd (ix1 c) = Bd (ix2 c 0) := by
  unfold hostLo
  rw [shapeCast_apply _ _ (ix1 c) (ix2 c (0 : Fin 1)) (by
    rw [Shape.rowMajor_val_two, Shape.rowMajor_val_one]; show c.val * 1 + 0 = c.val; omega)]
  refine extractStridedSlice_apply ![0, 0] Bd _ (ix2 c (0 : Fin 1)) (ix2 c (0 : Fin 2)) (fun a => ?_)
  match a with
  | ⟨0, _⟩ => show c.val = 0 + c.val; omega
  | ⟨1, _⟩ => show (0 : Nat) = 0 + 0; rfl

theorem hostHi_apply (Bd : FVec Ideal S256x2 .f32) (c : Fin 256) : hostHi Bd (ix1 c) = Bd (ix2 c 1) := by
  unfold hostHi
  rw [shapeCast_apply _ _ (ix1 c) (ix2 c (0 : Fin 1)) (by
    rw [Shape.rowMajor_val_two, Shape.rowMajor_val_one]; show c.val * 1 + 0 = c.val; omega)]
  refine extractStridedSlice_apply ![0, 1] Bd _ (ix2 c (0 : Fin 1)) (ix2 c (1 : Fin 2)) (fun a => ?_)
  match a with
  | ⟨0, _⟩ => show c.val = 0 + c.val; omega
  | ⟨1, _⟩ => show (1 : Nat) = 1 + 0; rfl

theorem hostScale_apply (Bd : FVec Ideal S256x2 .f32) (c : Fin 256) :
    hostScale Bd (ix1 c) = Ideal.div Cert.Pwl.twelve (Bd (ix2 c 1) - Bd (ix2 c 0)) := by
  unfold hostScale
  show Ideal.div (broadcastInDim S256 ![] Gen.bcast_S_S256 (constant (F := Ideal) S_ .f32 0x41400000#32) (ix1 c))
      (hostHi Bd (ix1 c) - hostLo Bd (ix1 c)) = _
  rw [hostHi_apply, hostLo_apply]
  rfl

theorem hostSO_apply_zero (Bd : FVec Ideal S256x2 .f32) (c : Fin 256) :
    hostSO Bd (ix2 c 0) = Ideal.div Cert.Pwl.twelve (Bd (ix2 c 1) - Bd (ix2 c 0)) := by
  unfold hostSO
  rw [concatenate_pair_apply_left (s₁ := S256x1) (s₂ := S256x1) (1 : Fin 2) _ _ Gen.concatenates_S256x1_S256x1_S256x2_d1 (ix2 c (0 : Fin 2)) rfl
    (ix2 c (0 : Fin 1)) (fun b => by match b with | ⟨0, _⟩ => rfl | ⟨1, _⟩ => rfl)]
  rw [broadcastInDim_apply ![0] Gen.bcast_S256_S256x1_0 _ (ix2 c (0 : Fin 1)) (ix1 c) (fun a => by
    match a with | ⟨0, _⟩ => rfl)]
  exact hostScale_apply Bd c

theorem hostSO_apply_one (Bd : FVec Ideal S256x2 .f32) (c : Fin 256) :
    hostSO Bd (ix2 c 1) = -Bd (ix2 c 0) * Ideal.div Cert.Pwl.twelve (Bd (ix2 c 1) - Bd (ix2 c 0)) := by
  unfold hostSO
  rw [concatenate_pair_apply_right (s₁ := S256x1) (s₂ := S256x1) (1 : Fin 2) _ _ Gen.concatenates_S256x1_S256x1_S256x2_d1 (ix2 c (1 : Fin 2)) rfl rfl
    (ix2 c (0 : Fin 1)) (fun b hb => by match b with | ⟨0, _⟩ => rfl | ⟨1, _⟩ => exact absurd rfl hb) rfl]
  rw [broadcastInDim_apply ![0] Gen.bcast_S256_S256x1_0 _ (ix2 c (0 : Fin 1)) (ix1 c) (fun a => by
    match a with | ⟨0, _⟩ => rfl)]
  show -(hostLo Bd (ix1 c)) * hostScale Bd (ix1 c) = _
  rw [hostLo_apply, hostScale_apply]

/-! ## The whole -/

/-- Reshaped back to [32,256,56,56], the launch's result over the host's four arrays is the scaled form of
    every entry with its own channel's bounds and knots. -/
theorem host_eq (X : FVec Ideal S32x256x56x56 .f32) (P : FVec Ideal S256x13 .f32) (Bd : FVec Ideal S256x2 .f32) :
    shapeCast S32x256x56x56 (blockFn (hostX X) (hostBase P) (hostSlope P) (hostSO Bd))
        Gen.shapeCasts_S32x256x3136_S32x256x56x56
      = Cert.Pwl.kernArr X P Bd := by
  funext i
  obtain ⟨b, c, h, w, rfl⟩ : ∃ (b : Fin 32) (c : Fin 256) (h w : Fin 56), i = ix4 b c h w :=
    ⟨i 0, i 1, i 2, i 3, eq_ix4 i⟩
  have hq : h.val * 56 + w.val < 3136 := by have := h.isLt; have := w.isLt; omega
  rw [shapeCast_apply _ _ (ix4 b c h w) (ix3 b c ⟨h.val * 56 + w.val, hq⟩) (by
    rw [Shape.rowMajor_val_four, Shape.rowMajor_val_three]
    show (b.val * 256 + c.val) * 3136 + (h.val * 56 + w.val) = ((b.val * 256 + c.val) * 56 + h.val) * 56 + w.val
    omega)]
  show Cert.Pwl.body (hostX X (ix3 b c ⟨h.val * 56 + w.val, hq⟩)) (hostSO Bd (ix2 c 0)) (hostSO Bd (ix2 c 1))
      (fun r => hostBase P (ix2 c r)) (fun r => hostSlope P (ix2 c r))
    = Cert.Pwl.kern (X (ix4 b c h w)) (Bd (ix2 c 0)) (Bd (ix2 c 1)) (fun r => P (ix2 c r))
  rw [hostX_apply X b c h w ⟨h.val * 56 + w.val, hq⟩ rfl, hostSO_apply_zero, hostSO_apply_one]
  simp only [hostBase_apply, hostSlope_apply]
  rfl

end Cert.KernelHost

end
-- ==== Proof.KernelRun.lean ====
/-
  The idealized kernel's run, read as a value.

  The launch walks a grid of 8 × 4 points; point (ci, bi) stages the block [8·bi, 8·bi+8) × [32·ci, 32·ci+32) × all
  of the merged input, and rows [32·ci, 32·ci+32) of the base table, the slope table and the scale/offset array,
  and writes back the same block of the result. The body leaves in that block, entry by entry, the scaled form of
  the input's entry and of its channel's row of the three small arrays; a block's entry (yb, yc, yq) is the array's
  entry (8·bi + yb, 32·ci + yc, yq), and row yc of a small block is row 32·ci + yc of its array — so every point
  writes a block of ONE function of the arrays (`KernelHost.blockFn`), the 32 blocks tile the result, and the result
  is that function. The host line after the launch reshapes it to [32,256,56,56], which is `Pwl.kernArr` of the
  arguments (`KernelHost.host_eq`). The body's stored block at an index is taken as a hypothesis `hout` here.
-/
import proofs.«128517_j3659312136864_2_alg».proof.Proof.Gen.KernelIdeal.Frame
import proofs.«128517_j3659312136864_2_alg».proof.Proof.KernelHost
import Idealize.ShloMosaic.Lib.ValueIdx
import Idealize.ShloMosaic.Lib.Pipeline.Value
import Idealize.ShloMosaic.Lib.StableHlo.Run

set_option maxRecDepth 16384

noncomputable section

namespace Cert.KernelRun

open Cert.KernelIdeal Cert.KernelIdeal.Gen Cert.KernelHost
open Idealize.ShloMosaic Idealize.ShloMosaic.TcCoe Idealize.SL.Sem Idealize.ShloMosaic.ValueIdx Idealize.ShloMosaic.StableHlo
open Idealize.ShloMosaic.Pipeline (Dat)

variable (m : (ℓ : Loc nD τ sig) → Buf (Elt Ideal) ℓ) (ρ : Dev nD → PrngReg)

/-- The three argument arrays on core `c`. -/
abbrev argX (c : Dev nD) : FVec Ideal S32x256x56x56 .f32 := m ((c : Thread nD τ).loc main_arg0)
abbrev argP (c : Dev nD) : FVec Ideal S256x13 .f32 := m ((c : Thread nD τ).loc main_arg1)
abbrev argB (c : Dev nD) : FVec Ideal S256x2 .f32 := m ((c : Thread nD τ).loc main_arg2)

/-- What the body's stored block is at an index, as the statement proved elsewhere. -/
def BodyReads : Prop :=
  ∀ (x0 : Vec Ideal S8x32x3136 .f32) (x1 x2 : Vec Ideal S32x12 .f32) (x3 : Vec Ideal S32x2 .f32)
    (b : Fin 8) (c : Fin 32) (q : Fin 3136),
    out0_4 (F := Ideal) x0 x1 x2 x3 (ix3 b c q)
      = Cert.Pwl.body (x0 (ix3 b c q)) (x3 (ix2 c 0)) (x3 (ix2 c 1)) (fun r => x1 (ix2 c r)) (fun r => x2 (ix2 c r))

/-! ## The arrays the launch finds -/

theorem V_v0 (c : Dev nD) : (V m c main_v0 : FVec Ideal S32x256x3136 .f32) = hostX (argX m c) := by
  show StableHlo.after hostOps0 (fun b => m (c, b)) (Proc.devRef .tc main_v0) = _
  after_results
  rfl

theorem V_v13 (c : Dev nD) : (V m c main_v13 : FVec Ideal S256x12 .f32) = hostBase (argP m c) := by
  show StableHlo.after hostOps0 (fun b => m (c, b)) (Proc.devRef .tc main_v13) = _
  after_results
  rfl

theorem V_v16 (c : Dev nD) : (V m c main_v16 : FVec Ideal S256x12 .f32) = hostSlope (argP m c) := by
  show StableHlo.after hostOps0 (fun b => m (c, b)) (Proc.devRef .tc main_v16) = _
  after_results
  rfl

theorem V_v12 (c : Dev nD) : (V m c main_v12 : FVec Ideal S256x2 .f32) = hostSO (argB m c) := by
  show StableHlo.after hostOps0 (fun b => m (c, b)) (Proc.devRef .tc main_v12) = _
  after_results
  rfl

/-! ## Blocks -/

/-- The printed index maps, decided over the 32 grid points: the input's block moves with the result's, the three
    small arrays' row block is the result's channel block, and every other block index is zero. -/
theorem idx_facts : ∀ t : Fin cfg0.N,
    win0_0.index t (0 : Fin 3) = win0_4.index t (0 : Fin 3) ∧ win0_0.index t (1 : Fin 3) = win0_4.index t (1 : Fin 3)
    ∧ win0_0.index t (2 : Fin 3) = 0 ∧ win0_4.index t (2 : Fin 3) = 0
    ∧ win0_1.index t (0 : Fin 2) = win0_4.index t (1 : Fin 3) ∧ win0_1.index t (1 : Fin 2) = 0
    ∧ win0_2.index t (0 : Fin 2) = win0_4.index t (1 : Fin 3) ∧ win0_2.index t (1 : Fin 2) = 0
    ∧ win0_3.index t (0 : Fin 2) = win0_4.index t (1 : Fin 3) ∧ win0_3.index t (1 : Fin 2) = 0
    ∧ win0_4.index t (0 : Fin 3) ≤ 3 ∧ win0_4.index t (1 : Fin 3) ≤ 7 :=
  (by decide +kernel : ∀ t : Fin grid0.N, _)

/-- Every block of the result is some point's. -/
theorem idx_onto : ∀ (q0 : Fin 4) (q1 : Fin 8), ∃ t : Fin cfg0.N, win0_4.index t = ![q0.val, q1.val, 0] :=
  (by decide +kernel : ∀ (q0 : Fin 4) (q1 : Fin 8), ∃ t : Fin grid0.N, win0_4.index t = ![q0.val, q1.val, 0])

/-- The scaled form of a point's staged blocks at a block entry is `blockFn` of the arrays at the entry's place in
    the result. -/
theorem blk_reads (t : Fin cfg0.N) (A0 : FVec Ideal S32x256x3136 .f32) (A1 A2 : FVec Ideal S256x12 .f32)
    (A3 : FVec Ideal S256x2 .f32) (yb : Fin 8) (yc : Fin 32) (yq : Fin 3136) :
    Cert.Pwl.body (A0 (((cfg0.win 0).blk t).view.emb (ix3 yb yc yq)))
        (A3 (((cfg0.win 3).blk t).view.emb (ix2 yc 0))) (A3 (((cfg0.win 3).blk t).view.emb (ix2 yc 1)))
        (fun r => A1 (((cfg0.win 1).blk t).view.emb (ix2 yc r))) (fun r => A2 (((cfg0.win 2).blk t).view.emb (ix2 yc r)))
      = blockFn A0 A1 A2 A3 (((cfg0.win 4).blk t).view.emb (ix3 yb yc yq)) := by
  obtain ⟨e00, e01, e02, e42, e10, e11, e20, e21, e30, e31, b0, b1⟩ := idx_facts t
  have hb : yb.val < 8 := yb.isLt
  have hc : yc.val < 32 := yc.isLt
  have hq : yq.val < 3136 := yq.isLt
  have h0 : ((cfg0.win 0).blk t).view.emb (ix3 yb yc yq) = ((cfg0.win 4).blk t).view.emb (ix3 yb yc yq) := by
    funext a; apply Fin.ext
    match a with
    | ⟨0, _⟩ => show win0_0.index t (0 : Fin 3) * 8 + 1 * yb.val = win0_4.index t (0 : Fin 3) * 8 + 1 * yb.val; omega
    | ⟨1, _⟩ => show win0_0.index t (1 : Fin 3) * 32 + 1 * yc.val = win0_4.index t (1 : Fin 3) * 32 + 1 * yc.val; omega
    | ⟨2, _⟩ => show win0_0.index t (2 : Fin 3) * 3136 + 1 * yq.val = win0_4.index t (2 : Fin 3) * 3136 + 1 * yq.val; omega
  have hch : (ch3 (((cfg0.win 4).blk t).view.emb (ix3 yb yc yq))).val = win0_4.index t (1 : Fin 3) * 32 + 1 * yc.val := rfl
  have h1 : ∀ r : Fin 12, ((cfg0.win 1).blk t).view.emb (ix2 yc r) = ix2 (ch3 (((cfg0.win 4).blk t).view.emb (ix3 yb yc yq))) r := by
    intro r; funext a; apply Fin.ext
    match a with
    | ⟨0, _⟩ => show win0_1.index t (0 : Fin 2) * 32 + 1 * yc.val = _; rw [hch]; omega
    | ⟨1, _⟩ => show win0_1.index t (1 : Fin 2) * 12 + 1 * r.val = r.val; omega
  have h2 : ∀ r : Fin 12, ((cfg0.win 2).blk t).view.emb (ix2 yc r) = ix2 (ch3 (((cfg0.win 4).blk t).view.emb (ix3 yb yc yq))) r := by
    intro r; funext a; apply Fin.ext
    match a with
    | ⟨0, _⟩ => show win0_2.index t (0 : Fin 2) * 32 + 1 * yc.val = _; rw [hch]; omega
    | ⟨1, _⟩ => show win0_2.index t (1 : Fin 2) * 12 + 1 * r.val = r.val; omega
  have h3 : ∀ k : Fin 2, ((cfg0.win 3).blk t).view.emb (ix2 yc k) = ix2 (ch3 (((cfg0.win 4).blk t).view.emb (ix3 yb yc yq))) k := by
    intro k; funext a; apply Fin.ext
    match a with
    | ⟨0, _⟩ => show win0_3.index t (0 : Fin 2) * 32 + 1 * yc.val = _; rw [hch]; omega
    | ⟨1, _⟩ => show win0_3.index t (1 : Fin 2) * 2 + 1 * k.val = k.val; omega
  unfold blockFn
  rw [h0, h3 0, h3 1]
  simp only [h1, h2]

/-- What point `t` writes back is block `t` of `blockFn` of the arrays the launch finds. -/
theorem flushed_eq (hout : BodyReads) (c : Dev nD) (t : Fin cfg0.N) :
    (dats m 0 c).flushed 4 t = ((cfg0.win 4).blk t).view.read (Elt Ideal)
      (blockFn (V m c main_v0) (V m c main_v13) (V m c main_v16) (V m c main_v12)) := by
  show (cfg0.win 4).cut (grid0.coords t) ((dats m 0 c).after 4 t) = _
  rw [after0_4]
  funext y
  obtain ⟨yb, yc, yq, rfl⟩ : ∃ (yb : Fin 8) (yc : Fin 32) (yq : Fin 3136), y = ix3 yb yc yq :=
    ⟨y 0, y 1, y 2, eq_ix3 y⟩
  refine (hout _ _ _ _ yb yc yq).trans ?_
  exact blk_reads t (V m c main_v0) (V m c main_v13) (V m c main_v16) (V m c main_v12) yb yc yq

/-- An index of the result is in point `t`'s block iff each coordinate is in the block's range on its axis. -/
theorem mem_blk (t : Fin cfg0.N) (i : S32x256x3136.Idx) :
    i ∈ ((cfg0.win 4).blk t).view.set ↔ ∀ a : Fin 3, win0_4.index t a * S8x32x3136.size a ≤ (i a).val
      ∧ (i a).val < win0_4.index t a * S8x32x3136.size a + S8x32x3136.size a := by
  show i ∈ ((View.whole main_v17).slice (win0_4.rect t)).set ↔ _
  rw [View.set_slice_whole, Rect.mem_set_unit]
  exact Iff.rfl

/-- The 32 blocks tile the result: entry (i0, i1, i2) lies in the block of the point with bi = i0/8, ci = i1/32. -/
theorem cover (i : S32x256x3136.Idx) :
    ∃ t : Fin cfg0.N, (cfg0.win 4).flush t = true ∧ i ∈ ((cfg0.win 4).blk t).view.set := by
  have hi0 : (i 0).val < 32 := (i 0).isLt
  have hi1 : (i 1).val < 256 := (i 1).isLt
  have hi2 : (i 2).val < 3136 := (i 2).isLt
  obtain ⟨t, ht⟩ := idx_onto ⟨(i 0).val / 8, by omega⟩ ⟨(i 1).val / 32, by omega⟩
  have q0 : win0_4.index t (0 : Fin 3) = (i 0).val / 8 := congrFun ht 0
  have q1 : win0_4.index t (1 : Fin 3) = (i 1).val / 32 := congrFun ht 1
  have q2 : win0_4.index t (2 : Fin 3) = 0 := congrFun ht 2
  refine ⟨t, flush0_4 t, ?_⟩
  rw [mem_blk]
  intro a
  match a with
  | ⟨0, _⟩ => show win0_4.index t (0 : Fin 3) * 8 ≤ (i 0).val ∧ (i 0).val < win0_4.index t (0 : Fin 3) * 8 + 8; omega
  | ⟨1, _⟩ => show win0_4.index t (1 : Fin 3) * 32 ≤ (i 1).val ∧ (i 1).val < win0_4.index t (1 : Fin 3) * 32 + 32; omega
  | ⟨2, _⟩ => show win0_4.index t (2 : Fin 3) * 3136 ≤ (i 2).val ∧ (i 2).val < win0_4.index t (2 : Fin 3) * 3136 + 3136; omega

/-- The result array after the launch. -/
theorem final (hout : BodyReads) (c : Dev nD) :
    (dats m 0 c).arrAt 4 cfg0.N = blockFn (V m c main_v0) (V m c main_v13) (V m c main_v16) (V m c main_v12) :=
  (dats m 0 c).arrAt_eq_of_cover 4 _ (fun t _ => flushed_eq m hout c t) cover

/-! ## The host line after the launch, and the run -/

/-- The result after the launch, as a function of the arguments. -/
theorem final_args (hout : BodyReads) (c : Dev nD) :
    (dats m 0 c).arrAt 4 cfg0.N
      = blockFn (hostX (argX m c)) (hostBase (argP m c)) (hostSlope (argP m c)) (hostSO (argB m c)) := by
  rw [final m hout c, V_v0, V_v13, V_v16, V_v12]

/-- The reshape after the launch reads the launch's result array; reshaped, it is the scaled form of the arguments. -/
theorem tail (hout : BodyReads) (c : Dev nD) :
    Pipeline.afterTail₀ cfgs (dats m) 0 (V0 m) [hostOps1] c main_v18
      = Cert.Pwl.kernArr (argX m c) (argP m c) (argB m c) := by
  unfold Pipeline.afterTail₀
  show StableHlo.after hostOps1 _ (Proc.devRef .tc main_v18) = _
  after_results
  refine Eq.trans (b := shapeCast S32x256x56x56
    (Pipeline.withArrays spec0 c (V0 m c) (fun w => (dats m 0 c).arrAt w cfg0.N) (Proc.devRef .tc main_v17))
    Gen.shapeCasts_S32x256x3136_S32x256x56x56) rfl ?_
  rw [show Pipeline.withArrays spec0 c (V0 m c) (fun w => (dats m 0 c).arrAt w cfg0.N) (Proc.devRef .tc main_v17) = _ from
    (Pipeline.withArrays_arr spec0 launch0.win.arr_inj c _ _ 4).trans (final_args m hout c)]
  exact host_eq _ _ _

/-- Every weakly fair execution of the idealized kernel's program ends with the result at the scaled form of the
    argument arrays, and the arguments unchanged. -/
theorem run (hout : BodyReads) :
    θ_run defs (onTc (τ := τ) (main (F := Ideal))) ⟨m, fun _ => 0, ρ⟩ (fun r => ∀ c : Dev nD,
      r.2.mem ((c.tc : Thread nD τ).loc main_v18)
        = Cert.Pwl.kernArr (m ((c.tc : Thread nD τ).loc main_arg0)) (m ((c.tc : Thread nD τ).loc main_arg1))
            (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨((h c).2 main_v18 (Pipeline.mem_restRefs_of main_v18 (by decide) (by decide))).trans (tail m hout c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelRun

end
-- ==== Proof.RefRead.lean ====
/-
  The reference program's result, read at one index, is the dividing form of the piecewise-linear lookup.

  The program computes, for every element, the quotient (x − lo)/(hi − lo), the clipped and scaled region number,
  its floor, the distance to it, the floor as a machine integer k, and then reads the knot table twice through a
  gather whose start index is the pair (row word, column word): the row word is the channel number itself, the
  column word is k (or k + 1) moved up by 13 when negative. A gather reads each component of its start index as a
  signed integer, sends a negative one to 0 and clamps at the last entry of the axis. So the row read is the channel's
  own row and the column read is the table column that Cert.Pwl.col names.
-/
import proofs.«128517_j3659312136864_2_alg».proof.Proof.Gen.ReferenceIdeal.Read
import proofs.«128517_j3659312136864_2_alg».proof.Proof.Pwl
import Idealize.ShloMosaic.Lib.ValueIdx
import Idealize.ShloMosaic.Lib.Pipeline.Value

noncomputable section

namespace Cert.RefRead

open Cert.ReferenceIdeal Cert.ReferenceIdeal.Read Idealize.ShloMosaic Idealize.ShloMosaic.ValueIdx

/-! ## The gather at an index -/

/-- The gather's dimension numbers: both table axes collapsed, the start index a (row, column) pair on axis 4. -/
abbrev GD : GatherDims S256x13 S32x256x56x56x2 S32x256x56x56 :=
  gather_S256x13_S32x256x56x56x2_S32x256x56x56_n_01_n_n_01_4_11

/-- The gather of a 256 × 13 table at start indices [b, c, h, w, ·]: result element (b, c, h, w) is the table at
    the row the start index's component 0 names and the column its component 1 names, each read signed, a negative
    one sent to 0, and clamped to the axis's last entry. -/
theorem gather_at {α : Type} (x : S256x13.Idx → α) (idx : IVec S32x256x56x56x2 32)
    (b : Fin 32) (c : Fin 256) (h : Fin 56) (w : Fin 56) :
    Host.gather gather_S256x13_S32x256x56x56x2_S32x256x56x56_n_01_n_n_01_4_11 x idx (ix4 b c h w) =
      x (ix2 (⟨min (idx (ix5 b c h w (0 : Fin 2))).toInt.toNat 255, by omega⟩ : Fin 256)
             (⟨min (idx (ix5 b c h w (1 : Fin 2))).toInt.toNat 12, by omega⟩ : Fin 13)) := by
  have h0 : GD.start (ix4 b c h w) idx (0 : Fin 2) + GD.batchCoord (ix4 b c h w) (0 : Fin 2)
      + GD.offCoord (ix4 b c h w) (0 : Fin 2) = min (idx (ix5 b c h w (0 : Fin 2))).toInt.toNat 255 := by
    rw [GatherDims.batchCoord_eq_zero _ _ _ List.not_mem_nil,
      GatherDims.offCoord_eq_zero _ _ _ (fun hm => ((GatherDims.mem_sKept _ _).mp hm).1
        (show (0 : Fin 2) ∈ [(0 : Fin 2), 1] from by decide))]
    simp only [Nat.add_zero]
    unfold GatherDims.start
    rw [dif_pos (show (0 : Fin 2) ∈ GD.startIndexMap from (by decide : (0 : Fin 2) ∈ [(0 : Fin 2), 1]))]
    have hsi : GD.siIdx (ix4 b c h w) ⟨List.idxOf (0 : Fin 2) GD.startIndexMap,
        List.idxOf_lt_length_iff.2 (by decide : (0 : Fin 2) ∈ [(0 : Fin 2), 1])⟩ = ix5 b c h w (0 : Fin 2) := by
      funext e; refine Fin.ext ?_
      match e with
      | ⟨0, _⟩ => rfl
      | ⟨1, _⟩ => rfl
      | ⟨2, _⟩ => rfl
      | ⟨3, _⟩ => rfl
      | ⟨4, _⟩ => rfl
    rw [hsi]
    rfl
  have h1 : GD.start (ix4 b c h w) idx (1 : Fin 2) + GD.batchCoord (ix4 b c h w) (1 : Fin 2)
      + GD.offCoord (ix4 b c h w) (1 : Fin 2) = min (idx (ix5 b c h w (1 : Fin 2))).toInt.toNat 12 := by
    rw [GatherDims.batchCoord_eq_zero _ _ _ List.not_mem_nil,
      GatherDims.offCoord_eq_zero _ _ _ (fun hm => ((GatherDims.mem_sKept _ _).mp hm).1
        (show (1 : Fin 2) ∈ [(0 : Fin 2), 1] from by decide))]
    simp only [Nat.add_zero]
    unfold GatherDims.start
    rw [dif_pos (show (1 : Fin 2) ∈ GD.startIndexMap from (by decide : (1 : Fin 2) ∈ [(0 : Fin 2), 1]))]
    have hsi : GD.siIdx (ix4 b c h w) ⟨List.idxOf (1 : Fin 2) GD.startIndexMap,
        List.idxOf_lt_length_iff.2 (by decide : (1 : Fin 2) ∈ [(0 : Fin 2), 1])⟩ = ix5 b c h w (1 : Fin 2) := by
      funext e; refine Fin.ext ?_
      match e with
      | ⟨0, _⟩ => rfl
      | ⟨1, _⟩ => rfl
      | ⟨2, _⟩ => rfl
      | ⟨3, _⟩ => rfl
      | ⟨4, _⟩ => rfl
    rw [hsi]
    rfl
  unfold Host.gather
  congr 1
  funext a
  refine Fin.ext ?_
  match a with
  | ⟨0, _⟩ => exact h0
  | ⟨1, _⟩ => exact h1

/-! ## The joined start indices at an index -/

/-- Two arrays of one entry on axis 4 joined along it: coordinate 0 on that axis reads the first … -/
theorem concat_at0 {α : Type} (A B : S32x256x56x56x1.Idx → α)
    (hC : Shape.Concatenates [S32x256x56x56x1, S32x256x56x56x1] S32x256x56x56x2 4)
    (b : Fin 32) (c : Fin 256) (h : Fin 56) (w : Fin 56) :
    concatenate S32x256x56x56x2 4 [⟨S32x256x56x56x1, A⟩, ⟨S32x256x56x56x1, B⟩] hC (ix5 b c h w (0 : Fin 2)) =
      A (ix5 b c h w (0 : Fin 1)) :=
  concatenate_pair_apply_left 4 A B hC (ix5 b c h w (0 : Fin 2)) rfl (ix5 b c h w (0 : Fin 1)) (fun e =>
    match e with
    | ⟨0, _⟩ => rfl
    | ⟨1, _⟩ => rfl
    | ⟨2, _⟩ => rfl
    | ⟨3, _⟩ => rfl
    | ⟨4, _⟩ => rfl)

/-- … and coordinate 1 reads the second. -/
theorem concat_at1 {α : Type} (A B : S32x256x56x56x1.Idx → α)
    (hC : Shape.Concatenates [S32x256x56x56x1, S32x256x56x56x1] S32x256x56x56x2 4)
    (b : Fin 32) (c : Fin 256) (h : Fin 56) (w : Fin 56) :
    concatenate S32x256x56x56x2 4 [⟨S32x256x56x56x1, A⟩, ⟨S32x256x56x56x1, B⟩] hC (ix5 b c h w (1 : Fin 2)) =
      B (ix5 b c h w (0 : Fin 1)) :=
  concatenate_pair_apply_right 4 A B hC (ix5 b c h w (1 : Fin 2)) rfl rfl (ix5 b c h w (0 : Fin 1)) (fun e =>
    match e with
    | ⟨0, _⟩ => fun _ => rfl
    | ⟨1, _⟩ => fun _ => rfl
    | ⟨2, _⟩ => fun _ => rfl
    | ⟨3, _⟩ => fun _ => rfl
    | ⟨4, _⟩ => fun hne => absurd rfl hne) rfl

/-! ## The two words of a start index -/

/-- The row word: a channel number below 256 is not negative as a signed word, is left as it is, and survives the
    clamp at 255. -/
theorem row_word (c : Fin 256) :
    min (Scalar.select (IntOp.cmpi .slt (BitVec.ofNat 32 c.val) 0#32) (IntOp.addi (BitVec.ofNat 32 c.val) 256#32)
      (BitVec.ofNat 32 c.val)).toInt.toNat 255 = c.val := by
  have hc : c.val < 256 := c.isLt
  have hnat : (BitVec.ofNat 32 c.val).toNat = c.val := by
    rw [BitVec.toNat_ofNat]; omega
  have hint : (BitVec.ofNat 32 c.val).toInt = (c.val : Int) := by
    rw [BitVec.toInt_eq_toNat_cond, hnat, if_pos (by omega)]
  have hslt : IntOp.cmpi .slt (BitVec.ofNat 32 c.val) 0#32 = 0#1 := by
    unfold IntOp.cmpi
    have : (BitVec.ofNat 32 c.val).slt 0#32 = false := by
      rw [BitVec.slt, hint]; simp
    simp only [this]; rfl
  rw [hslt, select_zero, hint]
  omega

/-- The column word: the machine integer moved up by 13 when it is negative as a signed word. -/
theorem col_word (k : BitVec 32) :
    Scalar.select (IntOp.cmpi .slt k 0#32) (IntOp.addi k 13#32) k = if k.toInt < 0 then k + 13#32 else k := by
  unfold IntOp.cmpi IntOp.addi
  by_cases hk : k.toInt < 0
  · have : k.slt 0#32 = true := by rw [BitVec.slt]; simpa using hk
    simp only [this]
    rw [if_pos hk]
    exact select_one _ _
  · have : k.slt 0#32 = false := by rw [BitVec.slt]; simpa using hk
    simp only [this]
    rw [if_neg hk]
    exact select_zero _ _

/-! ## The program's values at an index -/

section Values
variable (x0 : (⟨S32x256x56x56, .f32⟩ : BufTy).Contents (Elt Ideal))
  (x1 : (⟨S256x13, .f32⟩ : BufTy).Contents (Elt Ideal)) (x2 : (⟨S256x2, .f32⟩ : BufTy).Contents (Elt Ideal))
  (b : Fin 32) (c : Fin 256) (h : Fin 56) (w : Fin 56)

/-- The lower bound, spread over the array: the channel's entry 0 of the bounds. -/
theorem lo_at : val_main_v6 (F := Ideal) x2 (ix4 b c h w) = x2 (ix2 c (0 : Fin 2)) := by
  rw [val_main_v6_apply, val_main_v2_apply, val_main_v1_apply, val_main_v0_apply]
  refine congrArg x2 ?_
  funext a
  refine Fin.ext ?_
  match a with
  | ⟨0, _⟩ => exact Nat.div_one _
  | ⟨1, _⟩ => rfl

/-- The width, spread over the array: the channel's entry 1 of the bounds less its entry 0. -/
theorem width_at : val_main_v9 (F := Ideal) x2 (ix4 b c h w) = x2 (ix2 c (1 : Fin 2)) - x2 (ix2 c (0 : Fin 2)) := by
  rw [val_main_v9_apply, val_main_v8_apply, val_main_v5_apply, val_main_v4_apply, val_main_v3_apply,
    val_main_v2_apply, val_main_v1_apply, val_main_v0_apply]
  have e1 : idx_main_v3 (idx_main_v4 (idx_main_v5 (idx_main_v9 (ix4 b c h w)))) = ix2 c (1 : Fin 2) := by
    funext a
    refine Fin.ext ?_
    match a with
    | ⟨0, _⟩ => exact Nat.div_one _
    | ⟨1, _⟩ => rfl
  have e0 : idx_main_v0 (idx_main_v1 (idx_main_v2 (idx_main_v9 (ix4 b c h w)))) = ix2 c (0 : Fin 2) := by
    funext a
    refine Fin.ext ?_
    match a with
    | ⟨0, _⟩ => exact Nat.div_one _
    | ⟨1, _⟩ => rfl
  rw [e1, e0]
  rfl

/-- The quotient. -/
theorem xn_at : val_main_v10 (F := Ideal) x0 x2 (ix4 b c h w) =
    Ideal.div (x0 (ix4 b c h w) - x2 (ix2 c (0 : Fin 2))) (x2 (ix2 c (1 : Fin 2)) - x2 (ix2 c (0 : Fin 2))) := by
  rw [val_main_v10_apply, val_main_v7_apply, lo_at, width_at]
  rfl

/-- The region: the floor of the clipped quotient times twelve. -/
theorem g_at : val_main_v14 (F := Ideal) x0 x2 (ix4 b c h w) =
    Ideal.liftRound Int.floor
      (min Cert.Pwl.clipR (max Cert.Pwl.zero (val_main_v10 (F := Ideal) x0 x2 (ix4 b c h w))) * Cert.Pwl.twelve) := by
  rw [val_main_v14_apply, val_main_v13_apply, val_main_v11_apply, val_main_call0_v4_apply, val_main_call0_v3_apply,
    val_main_cst_0_apply, val_main_call0_v2_apply, val_main_call0_v1_apply, val_main_call0_v0_apply, val_main_cst_apply,
    val_main_v12_apply, val_main_cst_1_apply]
  rfl

/-- The distance: the quotient times twelve less the region. -/
theorem d_at : val_main_v17 (F := Ideal) x0 x2 (ix4 b c h w) =
    val_main_v10 (F := Ideal) x0 x2 (ix4 b c h w) * Cert.Pwl.twelve - val_main_v14 (F := Ideal) x0 x2 (ix4 b c h w) := by
  rw [val_main_v17_apply, val_main_v16_apply, val_main_v15_apply, val_main_cst_2_apply]
  rfl

end Values

/-! ## The two table reads -/

section Reads
variable (x0 : (⟨S32x256x56x56, .f32⟩ : BufTy).Contents (Elt Ideal))
  (x1 : (⟨S256x13, .f32⟩ : BufTy).Contents (Elt Ideal)) (x2 : (⟨S256x2, .f32⟩ : BufTy).Contents (Elt Ideal))
  (b : Fin 32) (c : Fin 256) (h : Fin 56) (w : Fin 56)

/-- Dropping the unit axis 4 of a start-index position gives back the element's position. -/
theorem drop_unit : idx_main_v33 (ix5 b c h w (0 : Fin 1)) = ix4 b c h w := by
  funext a
  match a with
  | ⟨0, _⟩ => rfl
  | ⟨1, _⟩ => rfl
  | ⟨2, _⟩ => rfl
  | ⟨3, _⟩ => rfl

/-- The same for the second read's start indices. -/
theorem drop_unit' : idx_main_v50 (ix5 b c h w (0 : Fin 1)) = ix4 b c h w := by
  funext a
  match a with
  | ⟨0, _⟩ => rfl
  | ⟨1, _⟩ => rfl
  | ⟨2, _⟩ => rfl
  | ⟨3, _⟩ => rfl

/-- The first read's row is the channel's. -/
theorem row35 : min (val_main_v34 (F := Ideal) x0 x2 (ix5 b c h w (0 : Fin 2))).toInt.toNat 255 = c.val := by
  unfold val_main_v34
  rw [concat_at0, val_main_v32_apply, val_main_v31_apply, val_main_v25_apply, val_main_v22_apply, val_main_v24_apply,
    val_main_v20_apply, val_main_v19_apply, val_main_v21_apply, val_main_c_apply, val_main_v23_apply, val_main_c_3_apply]
  exact row_word c

/-- The first read's column is the table column the machine integer names. -/
theorem col35 : min (val_main_v34 (F := Ideal) x0 x2 (ix5 b c h w (1 : Fin 2))).toInt.toNat 12 =
    (Cert.Pwl.col (val_main_v18 (F := Ideal) x0 x2 (ix4 b c h w))).val := by
  unfold val_main_v34
  rw [concat_at1, val_main_v33_apply, drop_unit, val_main_v30_apply, val_main_v27_apply, val_main_v29_apply,
    val_main_v26_apply, val_main_c_4_apply, val_main_v28_apply, val_main_c_5_apply, col_word]
  rfl

/-- The first table read: the channel's knot at the column of the machine integer. -/
theorem left_at : val_main_v35 (F := Ideal) x0 x1 x2 (ix4 b c h w) =
    x1 (ix2 c (Cert.Pwl.col (val_main_v18 (F := Ideal) x0 x2 (ix4 b c h w)))) := by
  unfold val_main_v35
  rw [gather_at]
  refine congrArg x1 ?_
  have hr : (⟨min (val_main_v34 (F := Ideal) x0 x2 (ix5 b c h w (0 : Fin 2))).toInt.toNat 255, by omega⟩ : Fin 256) = c :=
    Fin.ext (row35 x0 x2 b c h w)
  have hc : (⟨min (val_main_v34 (F := Ideal) x0 x2 (ix5 b c h w (1 : Fin 2))).toInt.toNat 12, by omega⟩ : Fin 13) =
      Cert.Pwl.col (val_main_v18 (F := Ideal) x0 x2 (ix4 b c h w)) :=
    Fin.ext (col35 x0 x2 b c h w)
  rw [hr, hc]

/-- The second read's row is the channel's. -/
theorem row52 : min (val_main_v51 (F := Ideal) x0 x2 (ix5 b c h w (0 : Fin 2))).toInt.toNat 255 = c.val := by
  unfold val_main_v51
  rw [concat_at0, val_main_v49_apply, val_main_v48_apply, val_main_v42_apply, val_main_v39_apply, val_main_v41_apply,
    val_main_v20_apply, val_main_v19_apply, val_main_v38_apply, val_main_c_7_apply, val_main_v40_apply, val_main_c_8_apply]
  exact row_word c

/-- The second read's column is the table column the next machine integer names. -/
theorem col52 : min (val_main_v51 (F := Ideal) x0 x2 (ix5 b c h w (1 : Fin 2))).toInt.toNat 12 =
    (Cert.Pwl.col (val_main_v18 (F := Ideal) x0 x2 (ix4 b c h w) + 1#32)).val := by
  unfold val_main_v51
  rw [concat_at1, val_main_v50_apply, drop_unit', val_main_v47_apply, val_main_v44_apply, val_main_v46_apply,
    val_main_v43_apply, val_main_c_9_apply, val_main_v45_apply, val_main_c_10_apply, val_main_v37_apply,
    val_main_v36_apply, val_main_c_6_apply, col_word]
  rfl

/-- The second table read: the channel's knot at the column of the next machine integer. -/
theorem right_at : val_main_v52 (F := Ideal) x0 x1 x2 (ix4 b c h w) =
    x1 (ix2 c (Cert.Pwl.col (val_main_v18 (F := Ideal) x0 x2 (ix4 b c h w) + 1#32))) := by
  unfold val_main_v52
  rw [gather_at]
  refine congrArg x1 ?_
  have hr : (⟨min (val_main_v51 (F := Ideal) x0 x2 (ix5 b c h w (0 : Fin 2))).toInt.toNat 255, by omega⟩ : Fin 256) = c :=
    Fin.ext (row52 x0 x2 b c h w)
  have hc : (⟨min (val_main_v51 (F := Ideal) x0 x2 (ix5 b c h w (1 : Fin 2))).toInt.toNat 12, by omega⟩ : Fin 13) =
      Cert.Pwl.col (val_main_v18 (F := Ideal) x0 x2 (ix4 b c h w) + 1#32) :=
    Fin.ext (col52 x0 x2 b c h w)
  rw [hr, hc]

end Reads

/-! ## The result -/

/-- The reference program's result is the dividing form on whole arrays. -/
theorem result_eq (x0 : (⟨S32x256x56x56, .f32⟩ : BufTy).Contents (Elt Ideal))
    (x1 : (⟨S256x13, .f32⟩ : BufTy).Contents (Elt Ideal)) (x2 : (⟨S256x2, .f32⟩ : BufTy).Contents (Elt Ideal)) :
    Cert.ReferenceIdeal.Read.val_main_v57 (F := Ideal) x0 x1 x2 = Cert.Pwl.refArr x0 x1 x2 := by
  funext i
  obtain ⟨b, c, h, w, rfl⟩ : ∃ (b : Fin 32) (c : Fin 256) (h : Fin 56) (w : Fin 56), i = ix4 b c h w :=
    ⟨i 0, i 1, i 2, i 3, eq_ix4 i⟩
  rw [val_main_v57_apply, val_main_v55_apply, val_main_v56_apply, left_at, right_at, val_main_v54_apply,
    val_main_v53_apply, val_main_cst_11_apply, val_main_v18_apply, d_at, g_at, xn_at]
  rfl

end Cert.RefRead

end
-- ==== Proof.lean ====
/-
  A per-channel piecewise-linear lookup: the kernel against its reference, over the extended reals.

  For channel c with bounds lo, hi and thirteen knots p, an input x is mapped to s = 12·(x − lo)/(hi − lo); the region
  is n = ⌊s clipped to [0, a little under 12]⌋ ∈ {0, …, 11}, the distance is d = s − n (of the UNCLIPPED s), and the result
  interpolates the knots n and n+1.

  The reference divides first, clips the quotient at the single-precision 0.999, multiplies by 12, turns the floor into an
  integer, reads the knots n and n+1 of the channel and returns p n·(1 − d) + p (n+1)·d (`Pwl.ref`). The kernel's
  program folds the quotient on the host into a scale 12/(hi − lo) and an offset −lo·scale, keeps a base table (knots
  0..11) and a slope table (differences of consecutive knots), and on every block computes s = x·scale + offset, clips at
  the single-precision 11.988, picks base and slope by comparing the floor with 0, …, 11, and returns base + d·slope
  (`Pwl.kern`).

  Where every input is a real number and hi ≠ lo the two are one function: s is the same real on both sides; the two
  clip bounds differ (11.98799… against 12·0.99900… = 11.98800…) but both lie in [11, 12), so the floor of the clipped
  number is min(⌊max 0 s⌋, 11) either way; and p n + d·(p (n+1) − p n) = p n·(1 − d) + p (n+1)·d in ℝ (`Pwl.kern_eq_ref`).
  Where hi = lo the reference's own quotient is infinite or 0/0 and the two sides part (for instance bounds (1, 1),
  knots (0, 1, 0, …, 0) and x = 2 give −∞ against 0), which is why the precondition asks hi ≠ lo of every channel.

  The pieces: the kernel's run ends with the result at `Pwl.kernArr` of the arguments (`KernelRun.run`, over the
  body's stored block read at an index, `BodyRead.out_apply`); the reference's run ends at `Pwl.refArr`
  (`RefRead.result_eq` over the reference's run); the precondition gives real entries and hi ≠ lo (`PreRead.decode`).
-/
import proofs.«128517_j3659312136864_2_alg».proof.Defs
import proofs.«128517_j3659312136864_2_alg».proof.Proof.Gen.Kernel
import proofs.«128517_j3659312136864_2_alg».proof.Proof.Gen.Kernel.Frame
import proofs.«128517_j3659312136864_2_alg».proof.Proof.Gen.KernelIdeal
import proofs.«128517_j3659312136864_2_alg».proof.Proof.Gen.KernelIdeal.Frame
import proofs.«128517_j3659312136864_2_alg».proof.Proof.Gen.ReferenceIdeal
import proofs.«128517_j3659312136864_2_alg».proof.Proof.Gen.ReferenceIdeal.Run
import proofs.«128517_j3659312136864_2_alg».proof.Proof.Gen.ReferenceIdeal.Read
import proofs.«128517_j3659312136864_2_alg».proof.Proof.Gen.Pre_finite_inputs
import proofs.«128517_j3659312136864_2_alg».proof.Proof.Pwl
import proofs.«128517_j3659312136864_2_alg».proof.Proof.PwlLaw
import proofs.«128517_j3659312136864_2_alg».proof.Proof.PreRead
import proofs.«128517_j3659312136864_2_alg».proof.Proof.BodyRead
import proofs.«128517_j3659312136864_2_alg».proof.Proof.KernelRun
import proofs.«128517_j3659312136864_2_alg».proof.Proof.RefRead
import Idealize.ShloMosaic.Adequacy
import Idealize.ShloMosaic.Init

noncomputable section

namespace Cert.Proof

open Idealize.ShloMosaic Idealize.ShloMosaic.TcCoe Idealize.SL.Sem Idealize.ShloMosaic.ValueIdx

/-- Under the precondition the two forms agree on whole arrays: entry by entry the input, the channel's two bounds
    and its thirteen knots are real numbers and the bounds differ, so `Pwl.kern_eq_ref` applies. -/
theorem arrays_eq [Cert.Pre_finite_inputs.Facts]
    (X : FVec Ideal Cert.Pre_finite_inputs.S32x256x56x56 .f32) (P : FVec Ideal Cert.Pre_finite_inputs.S256x13 .f32)
    (Bd : FVec Ideal Cert.Pre_finite_inputs.S256x2 .f32)
    (h : Cert.Pre_finite_inputs.fn (F := Ideal) X P Bd = fun _ => 1#1) :
    Cert.Pwl.refArr X P Bd = Cert.Pwl.kernArr X P Bd := by
  obtain ⟨hx, hp, hb, hne⟩ := Cert.PreRead.decode X P Bd h
  funext i
  obtain ⟨x, hx'⟩ := hx i
  obtain ⟨lo, hlo⟩ := hb (ix2 (Cert.Pwl.chan i) 0)
  obtain ⟨hi, hhi⟩ := hb (ix2 (Cert.Pwl.chan i) 1)
  choose p hp' using fun r : Fin 13 => hp (ix2 (Cert.Pwl.chan i) r)
  have hne' : hi ≠ lo := fun e => hne (Cert.Pwl.chan i) (by rw [hhi, hlo, e])
  show Cert.Pwl.ref (X i) (Bd (ix2 (Cert.Pwl.chan i) 0)) (Bd (ix2 (Cert.Pwl.chan i) 1)) (fun r => P (ix2 (Cert.Pwl.chan i) r))
    = Cert.Pwl.kern (X i) (Bd (ix2 (Cert.Pwl.chan i) 0)) (Bd (ix2 (Cert.Pwl.chan i) 1)) (fun r => P (ix2 (Cert.Pwl.chan i) r))
  rw [hx', hlo, hhi, show (fun r => P (ix2 (Cert.Pwl.chan i) r)) = fun r => ((p r : ℝ) : EReal) from funext hp']
  exact (Cert.Pwl.kern_eq_ref x lo hi p hne').symm

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments, the kernel's program ends at the scaled form of the arguments and the
    reference at the dividing form of the same arguments; under the precondition these are one array. -/
theorem algebraic : Cert.algebraic_KernelIdeal_ReferenceIdeal := by
  intro m ρ m' ρ' hpre hagree
  refine ⟨fun c => Cert.Pwl.kernArr (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelRun.run m ρ Cert.BodyRead.out_apply, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v57_eq, Cert.RefRead.result_eq, (hagree c).1, (hagree c).2.1, (hagree c).2.2]
  exact arrays_eq _ _ _ (hpre c)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
